-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S100000x8 : Shape := ⟨2, ![100000, 8]⟩
abbrev S3200000 : Shape := ⟨1, ![3200000]⟩
abbrev S2x32768 : Shape := ⟨2, ![2, 32768]⟩
abbrev S128x768 : Shape := ⟨2, ![128, 768]⟩
abbrev S128 : Shape := ⟨1, ![128]⟩
abbrev S16x144 : Shape := ⟨2, ![16, 144]⟩
abbrev S16 : Shape := ⟨1, ![16]⟩
abbrev S3x16 : Shape := ⟨2, ![3, 16]⟩
abbrev S3 : Shape := ⟨1, ![3]⟩
abbrev S8x8 : Shape := ⟨2, ![8, 8]⟩
abbrev S8 : Shape := ⟨1, ![8]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S100000x8 : S_.BroadcastsInDim S100000x8 (![] : Fin 0 → Fin S100000x8.rank)
  reducesTo_S100000x8_S_d0_1 : S100000x8.ReducesTo [0, 1] S_
  bcast_S_S128x768 : S_.BroadcastsInDim S128x768 (![] : Fin 0 → Fin S128x768.rank)
  reducesTo_S128x768_S_d0_1 : S128x768.ReducesTo [0, 1] S_
  bcast_S_S128 : S_.BroadcastsInDim S128 (![] : Fin 0 → Fin S128.rank)
  reducesTo_S128_S_d0 : S128.ReducesTo [0] S_
  bcast_S_S16x144 : S_.BroadcastsInDim S16x144 (![] : Fin 0 → Fin S16x144.rank)
  reducesTo_S16x144_S_d0_1 : S16x144.ReducesTo [0, 1] S_
  bcast_S_S16 : S_.BroadcastsInDim S16 (![] : Fin 0 → Fin S16.rank)
  reducesTo_S16_S_d0 : S16.ReducesTo [0] S_
  bcast_S_S3x16 : S_.BroadcastsInDim S3x16 (![] : Fin 0 → Fin S3x16.rank)
  reducesTo_S3x16_S_d0_1 : S3x16.ReducesTo [0, 1] S_
  bcast_S_S3 : S_.BroadcastsInDim S3 (![] : Fin 0 → Fin S3.rank)
  reducesTo_S3_S_d0 : S3.ReducesTo [0] S_
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  main_v53

def fn_part2 {F : FTy → Type} [FloatOps F] (main_arg10 : FVec F S3 .f32) (main_arg11 : FVec F S8x8 .f32) (main_arg12 : FVec F S8x8 .f32) (main_arg13 : FVec F S8 .f32) (main_v33 : IVec S_ 1) : IVec S_ 1 :=
  let main_v34 : FVec F S3 .f32 := Host.absf main_arg10
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_v39 : FVec F S8x8 .f32 := Host.absf main_arg11
  let main_cst_14 : FVec F S_ .f32 := constant S_ .f32 0x7F800000#32
  let main_v40 : FVec F S8x8 .f32 := broadcastInDim S8x8 ![] bcast_S_S8x8 main_cst_14
  let main_v41 : IVec S8x8 1 := cmpf .olt main_v39 main_v40
  let main_c_15 : IVec S_ 1 := constantI S_ 1 1#1
  let main_v42 : IVec S_ 1 := (fun x v => Host.reduce IntOp.andi x v reducesTo_S8x8_S_d0_1 h_S_) main_v41 main_c_15
  let main_v43 : IVec S_ 1 := andi main_v38 main_v42
  let main_v44 : FVec F S8x8 .f32 := Host.absf main_arg12
  let main_cst_16 : FVec F S_ .f32 := constant S_ .f32 0x7F800000#32
  let main_v45 : FVec F S8x8 .f32 := broadcastInDim S8x8 ![] bcast_S_S8x8 main_cst_16
  let main_v46 : IVec S8x8 1 := cmpf .olt main_v44 main_v45
  let main_c_17 : IVec S_ 1 := constantI S_ 1 1#1
  let main_v47 : IVec S_ 1 := (fun x v => Host.reduce IntOp.andi x v reducesTo_S8x8_S_d0_1 h_S_) main_v46 main_c_17
  let main_v48 : IVec S_ 1 := andi main_v43 main_v47
  let main_v49 : FVec F S8 .f32 := Host.absf main_arg13
  let main_cst_18 : FVec F S_ .f32 := constant S_ .f32 0x7F800000#32
  let main_v50 : FVec F S8 .f32 := broadcastInDim S8 ![] bcast_S_S8 main_cst_18
  fn_part3 (F := F) main_v48 main_v49 main_v50

def fn_part1 {F : FTy → Type} [FloatOps F] (main_arg7 : FVec F S16x144 .f32) (main_arg8 : FVec F S16 .f32) (main_arg9 : FVec F S3x16 .f32) (main_arg10 : FVec F S3 .f32) (main_arg11 : FVec F S8x8 .f32) (main_arg12 : FVec F S8x8 .f32) (main_arg13 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S16x144 .f32 := Host.absf main_arg7
  let main_cst_6 : FVec F S_ .f32 := constant S_ .f32 0x7F800000#32
  let main_v20 : FVec F S16x144 .f32 := broadcastInDim S16x144 ![] bcast_S_S16x144 main_cst_6
  let main_v21 : IVec S16x144 1 := cmpf .olt main_v19 main_v20
  let main_c_7 : IVec S_ 1 := constantI S_ 1 1#1
  let main_v22 : IVec S_ 1 := (fun x v => Host.reduce IntOp.andi x v reducesTo_S16x144_S_d0_1 h_S_) main_v21 main_c_7
  let main_v23 : IVec S_ 1 := andi main_v18 main_v22
  let main_v24 : FVec F S16 .f32 := Host.absf main_arg8
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S3x16 .f32 := Host.absf main_arg9
  let main_cst_10 : FVec F S_ .f32 := constant S_ .f32 0x7F800000#32
  let main_v30 : FVec F S3x16 .f32 := broadcastInDim S3x16 ![] bcast_S_S3x16 main_cst_10
  let main_v31 : IVec S3x16 1 := cmpf .olt main_v29 main_v30
  let main_c_11 : IVec S_ 1 := constantI S_ 1 1#1
  let main_v32 : IVec S_ 1 := (fun x v => Host.reduce IntOp.andi x v reducesTo_S3x16_S_d0_1 h_S_) main_v31 main_c_11
  let main_v33 : IVec S_ 1 := andi main_v28 main_v32
  fn_part2 (F := F) main_arg10 main_arg11 main_arg12 main_arg13 main_v33

def fn {F : FTy → Type} [FloatOps F] (main_arg0 : FVec F S32768x768 .f32) (main_arg1 : FVec F S100000x8 .f32) (main_arg2 : IVec S3200000 32) (main_arg3 : IVec S3200000 32) (main_arg4 : IVec S2x32768 32) (main_arg5 : FVec F S128x768 .f32) (main_arg6 : FVec F S128 .f32) (main_arg7 : FVec F S16x144 .f32) (main_arg8 : FVec F S16 .f32) (main_arg9 : FVec F S3x16 .f32) (main_arg10 : FVec F S3 .f32) (main_arg11 : FVec F S8x8 .f32) (main_arg12 : FVec F S8x8 .f32) (main_arg13 : FVec F S8 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S100000x8 .f32 := Host.absf main_arg1
  let main_cst_0 : FVec F S_ .f32 := constant S_ .f32 0x7F800000#32
  let main_v5 : FVec F S100000x8 .f32 := broadcastInDim S100000x8 ![] bcast_S_S100000x8 main_cst_0
  let main_v6 : IVec S100000x8 1 := cmpf .olt main_v4 main_v5
  let main_c_1 : IVec S_ 1 := constantI S_ 1 1#1
  let main_v7 : IVec S_ 1 := (fun x v => Host.reduce IntOp.andi x v reducesTo_S100000x8_S_d0_1 h_S_) main_v6 main_c_1
  let main_v8 : IVec S_ 1 := andi main_v3 main_v7
  let main_v9 : FVec F S128x768 .f32 := Host.absf main_arg5
  let main_cst_2 : FVec F S_ .f32 := constant S_ .f32 0x7F800000#32
  let main_v10 : FVec F S128x768 .f32 := broadcastInDim S128x768 ![] bcast_S_S128x768 main_cst_2
  let main_v11 : IVec S128x768 1 := cmpf .olt main_v9 main_v10
  let main_c_3 : IVec S_ 1 := constantI S_ 1 1#1
  let main_v12 : IVec S_ 1 := (fun x v => Host.reduce IntOp.andi x v reducesTo_S128x768_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_v13 main_v16
-- ==== Kernel.lean ====
abbrev S32768x768 : Shape := ⟨2, ![32768, 768]⟩
abbrev S100000x8 : Shape := ⟨2, ![100000, 8]⟩
abbrev S3200000 : Shape := ⟨1, ![3200000]⟩
abbrev S2x32768 : Shape := ⟨2, ![2, 32768]⟩
abbrev S128x768 : Shape := ⟨2, ![128, 768]⟩
abbrev S128 : Shape := ⟨1, ![128]⟩
abbrev S16x144 : Shape := ⟨2, ![16, 144]⟩
abbrev S16 : Shape := ⟨1, ![16]⟩
abbrev S3x16 : Shape := ⟨2, ![3, 16]⟩
abbrev S3 : Shape := ⟨1, ![3]⟩
abbrev S8x8 : Shape := ⟨2, ![8, 8]⟩
abbrev S8 : Shape := ⟨1, ![8]⟩
abbrev S_ : Shape := ⟨0, ![]⟩
abbrev S3200000x1 : Shape := ⟨2, ![3200000, 1]⟩
abbrev S3200000x8 : Shape := ⟨2, ![3200000, 8]⟩
abbrev S100000 : Shape := ⟨1, ![100000]⟩
abbrev S100000x1 : Shape := ⟨2, ![100000, 1]⟩
abbrev S1x8 : Shape := ⟨2, ![1, 8]⟩
abbrev S2000x8 : Shape := ⟨2, ![2000, 8]⟩
abbrev S1x32768 : Shape := ⟨2, ![1, 32768]⟩
abbrev S32768 : Shape := ⟨1, ![32768]⟩
abbrev S32768x1 : Shape := ⟨2, ![32768, 1]⟩
abbrev S32768x8 : Shape := ⟨2, ![32768, 8]⟩
abbrev S1x128 : Shape := ⟨2, ![1, 128]⟩
abbrev S1x16 : Shape := ⟨2, ![1, 16]⟩
abbrev S1x3 : Shape := ⟨2, ![1, 3]⟩
abbrev S32768x3 : Shape := ⟨2, ![32768, 3]⟩
abbrev S2048x768 : Shape := ⟨2, ![2048, 768]⟩
abbrev S2048x8 : Shape := ⟨2, ![2048, 8]⟩
abbrev S2048x3 : Shape := ⟨2, ![2048, 3]⟩
abbrev S768x128 : Shape := ⟨2, ![768, 128]⟩
abbrev S2048x128 : Shape := ⟨2, ![2048, 128]⟩
abbrev S2048x144 : Shape := ⟨2, ![2048, 144]⟩
abbrev S144x16 : Shape := ⟨2, ![144, 16]⟩
abbrev S2048x16 : Shape := ⟨2, ![2048, 16]⟩
abbrev S16x3 : Shape := ⟨2, ![16, 3]⟩

abbrev nBuf : Space → Nat
  | .hbm => 67
  | .vmem => 23
  | .smem => 0
  | _ => 0

abbrev bufTy : (tb : Table) → Fin (tcTables nBuf tb) → BufTy
  | .hbm, ⟨0, _⟩ => ⟨S32768x768, .f32⟩
  | .hbm, ⟨1, _⟩ => ⟨S100000x8, .f32⟩
  | .hbm, ⟨2, _⟩ => ⟨S3200000, .i32⟩
  | .hbm, ⟨3, _⟩ => ⟨S3200000, .i32⟩
  | .hbm, ⟨4, _⟩ => ⟨S2x32768, .i32⟩
  | .hbm, ⟨5, _⟩ => ⟨S128x768, .f32⟩
  | .hbm, ⟨6, _⟩ => ⟨S128, .f32⟩
  | .hbm, ⟨7, _⟩ => ⟨S16x144, .f32⟩
  | .hbm, ⟨8, _⟩ => ⟨S16, .f32⟩
  | .hbm, ⟨9, _⟩ => ⟨S3x16, .f32⟩
  | .hbm, ⟨10, _⟩ => ⟨S3, .f32⟩
  | .hbm, ⟨11, _⟩ => ⟨S8x8, .f32⟩
  | .hbm, ⟨12, _⟩ => ⟨S8x8, .f32⟩
  | .hbm, ⟨13, _⟩ => ⟨S8, .f32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x8, .f32⟩
  | .hbm, ⟨23, _⟩ => ⟨S_, .f32⟩
  | .hbm, ⟨24, _⟩ => ⟨S100000x8, .f32⟩
  | .hbm, ⟨25, _⟩ => ⟨S3200000x1, .i32⟩
  | .hbm, ⟨26, _⟩ => ⟨S100000x8, .f32⟩
  | .hbm, ⟨27, _⟩ => ⟨S_, .f32⟩
  | .hbm, ⟨28, _⟩ => ⟨S3200000, .f32⟩
  | .hbm, ⟨29, _⟩ => ⟨S_, .f32⟩
  | .hbm, ⟨30, _⟩ => ⟨S100000, .f32⟩
  | .hbm, ⟨31, _⟩ => ⟨S3200000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x8, .f32⟩
  | .hbm, ⟨38, _⟩ => ⟨S100000x8, .f32⟩
  | .hbm, ⟨39, _⟩ => ⟨S1x8, .f32⟩
  | .hbm, ⟨40, _⟩ => ⟨S100000x8, .f32⟩
  | .hbm, ⟨41, _⟩ => ⟨S1x32768, .i32⟩
  | .hbm, ⟨42, _⟩ => ⟨S32768, .i32⟩
  | .hbm, ⟨43, _⟩ => ⟨S_, .i32⟩
  | .hbm, ⟨44, _⟩ => ⟨S32768, .i32⟩
  | .hbm, ⟨45, _⟩ => ⟨S32768, .i1⟩
  | .hbm, ⟨46, _⟩ => ⟨S_, .i32⟩
  | .hbm, ⟨47, _⟩ => ⟨S32768, .i32⟩
  | .hbm, ⟨48, _⟩ => ⟨S32768, .i32⟩
  | .hbm, ⟨49, _⟩ => ⟨S32768, .i32⟩
  | .hbm, ⟨50, _⟩ => ⟨S32768x1, .i32⟩
  | .hbm, ⟨51, _⟩ => ⟨S32768x8, .f32⟩
  | .hbm, ⟨52, _⟩ => ⟨S1x32768, .i32⟩
  | .hbm, ⟨53, _⟩ => ⟨S32768, .i32⟩
  | .hbm, ⟨54, _⟩ => ⟨S_, .i32⟩
  | .hbm, ⟨55, _⟩ => ⟨S32768, .i32⟩
  | .hbm, ⟨56, _⟩ => ⟨S32768, .i1⟩
  | .hbm, ⟨57, _⟩ => ⟨S_, .i32⟩
  | .hbm, ⟨58, _⟩ => ⟨S32768, .i32⟩
  | .hbm, ⟨59, _⟩ => ⟨S32768, .i32⟩
  | .hbm, ⟨60, _⟩ => ⟨S32768, .i32⟩
  | .hbm, ⟨61, _⟩ => ⟨S32768x1, .i32⟩
  | .hbm, ⟨62, _⟩ => ⟨S32768x8, .f32⟩
  | .hbm, ⟨63, _⟩ => ⟨S1x128, .f32⟩
  | .hbm, ⟨64, _⟩ => ⟨S1x16, .f32⟩
  | .hbm, ⟨65, _⟩ => ⟨S1x3, .f32⟩
  | .hbm, ⟨66, _⟩ => ⟨S32768x3, .f32⟩
  | .local _ .vmem, ⟨0, _⟩ => ⟨S2000x8, .f32⟩
  | .local _ .vmem, ⟨1, _⟩ => ⟨S2000x8, .f32⟩
  | .local _ .vmem, ⟨2, _⟩ => ⟨S2000x8, .f32⟩
  | .local _ .vmem, ⟨3, _⟩ => ⟨S2000x8, .f32⟩
  | .local _ .vmem, ⟨4, _⟩ => ⟨S8x8, .f32⟩
  | .local _ .vmem, ⟨5, _⟩ => ⟨S8x8, .f32⟩
  | .local _ .vmem, ⟨6, _⟩ => ⟨S1x8, .f32⟩
  | .local _ .vmem, ⟨7, _⟩ => ⟨S2000x8, .f32⟩
  | .local _ .vmem, ⟨8, _⟩ => ⟨S2000x8, .f32⟩
  | .local _ .vmem, ⟨9, _⟩ => ⟨S2048x768, .f32⟩
  | .local _ .vmem, ⟨10, _⟩ => ⟨S2048x768, .f32⟩
  | .local _ .vmem, ⟨11, _⟩ => ⟨S2048x8, .f32⟩
  | .local _ .vmem, ⟨12, _⟩ => ⟨S2048x8, .f32⟩
  | .local _ .vmem, ⟨13, _⟩ => ⟨S2048x8, .f32⟩
  | .local _ .vmem, ⟨14, _⟩ => ⟨S2048x8, .f32⟩
  | .local _ .vmem, ⟨15, _⟩ => ⟨S128x768, .f32⟩
  | .local _ .vmem, ⟨16, _⟩ => ⟨S1x128, .f32⟩
  | .local _ .vmem, ⟨17, _⟩ => ⟨S16x144, .f32⟩
  | .local _ .vmem, ⟨18, _⟩ => ⟨S1x16, .f32⟩
  | .local _ .vmem, ⟨19, _⟩ => ⟨S3x16, .f32⟩
  | .local _ .vmem, ⟨20, _⟩ => ⟨S1x3, .f32⟩
  | .local _ .vmem, ⟨21, _⟩ => ⟨S2048x3, .f32⟩
  | .local _ .vmem, ⟨22, _⟩ => ⟨S2048x3, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x144 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x3 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x3 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  shapeCasts_S8_S1x8 : S8.ShapeCasts S1x8
  inb_S2000x8_S2000x8_0_0 : ∀ a, (![0, 0] : Fin 2 → Nat) a + S2000x8.size a ≤ S2000x8.size a
  h_S2000x8 : 0 < S2000x8.numel
  bitsLt_bf16_f32 : FTy.bits .bf16 < FTy.bits .f32
  shapeCasts_S2000x8_S2000x8 : S2000x8.ShapeCasts S2000x8
  inb_S8x8_S8x8_0_0 : ∀ a, (![0, 0] : Fin 2 → Nat) a + S8x8.size a ≤ S8x8.size a
  h_S8x8 : 0 < S8x8.numel
  transposes_S8x8_p1_0_S8x8 : S8x8.Transposes [1, 0] S8x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  slices_S2x32768_S1x32768_0_0 : S2x32768.Slices ![0, 0] S1x32768
  shapeCasts_S1x32768_S32768 : S1x32768.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  slices_S2x32768_S1x32768_1_0 : S2x32768.Slices ![1, 0] S1x32768
  shapeCasts_S128_S1x128 : S128.ShapeCasts S1x128
  shapeCasts_S16_S1x16 : S16.ShapeCasts S1x16
  shapeCasts_S3_S1x3 : S3.ShapeCasts S1x3
  inb_S2048x768_S2048x768_0_0 : ∀ a, (![0, 0] : Fin 2 → Nat) a + S2048x768.size a ≤ S2048x768.size a
  h_S2048x768 : 0 < S2048x768.numel
  inb_S128x768_S128x768_0_0 : ∀ a, (![0, 0] : Fin 2 → Nat) a + S128x768.size a ≤ S128x768.size a
  h_S128x768 : 0 < S128x768.numel
  transposes_S128x768_p1_0_S768x128 : S128x768.Transposes [1, 0] S768x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  concatenates_S2048x128_S2048x8_S2048x8_S2048x144_d1 : Shape.Concatenates [S2048x128, S2048x8, S2048x8] S2048x144 1
  inb_S16x144_S16x144_0_0 : ∀ a, (![0, 0] : Fin 2 → Nat) a + S16x144.size a ≤ S16x144.size a
  h_S16x144 : 0 < S16x144.numel
  transposes_S16x144_p1_0_S144x16 : S16x144.Transposes [1, 0] S144x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S3x16_S3x16_0_0 : ∀ a, (![0, 0] : Fin 2 → Nat) a + S3x16.size a ≤ S3x16.size a
  h_S3x16 : 0 < S3x16.numel
  transposes_S3x16_p1_0_S16x3 : S3x16.Transposes [1, 0] S16x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2048x3 : S1x3.Broadcasts S2048x3
  inb_S2048x3_S2048x3_0_0 : ∀ a, (![0, 0] : Fin 2 → Nat) a + S2048x3.size a ≤ S2048x3.size a
  h_S2048x3 : 0 < S2048x3.numel
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  scatter_S100000_S3200000x1_S3200000_n_0_0_1_wf : ScatterDims.WF S100000 S3200000x1 S3200000 [] [0] [0] 1
  dot_S2000x8_S8x8_S2000x8_1_0_0_1_n_n_wf : DotDims.WF S2000x8 S8x8 S2000x8 [1] [0] [0] [1] [] []
  gather_S100000x8_S32768x1_S32768x8_1_0_n_n_0_1_18_wf : GatherDims.WF S100000x8 S32768x1 S32768x8 [1] [0] [] [0] [] 1 ![1, 8]
  dot_S2048x768_S768x128_S2048x128_1_0_0_1_n_n_wf : DotDims.WF S2048x768 S768x128 S2048x128 [1] [0] [0] [1] [] []
  dot_S2048x144_S144x16_S2048x16_1_0_0_1_n_n_wf : DotDims.WF S2048x144 S144x16 S2048x16 [1] [0] [0] [1] [] []
  dot_S2048x16_S16x3_S2048x3_1_0_0_1_n_n_wf : DotDims.WF S2048x16 S16x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x8.size a ≤ S100000x8.size a
  hwx0_0 : ∀ i : grid0.Coords, EltTy.bits .f32 = 32 ∨ (Rect.block (s := S100000x8) S2000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x8.size a ≤ S100000x8.size a
  hwx0_1 : ∀ i : grid0.Coords, EltTy.bits .f32 = 32 ∨ (Rect.block (s := S100000x8) S2000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x8.size a ≤ S8x8.size a
  hwx0_2 : ∀ i : grid0.Coords, EltTy.bits .f32 = 32 ∨ (Rect.block (s := S8x8) S8x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x8.size a ≤ S8x8.size a
  hwx0_3 : ∀ i : grid0.Coords, EltTy.bits .f32 = 32 ∨ (Rect.block (s := S8x8) S8x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x8.size a ≤ S100000x8.size a
  hwx0_5 : ∀ i : grid0.Coords, EltTy.bits .f32 = 32 ∨ (Rect.block (s := S100000x8) S2000x8.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x768.size a ≤ S32768x768.size a
  hwx1_0 : ∀ i : grid1.Coords, EltTy.bits .f32 = 32 ∨ (Rect.block (s := S32768x768) S2048x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x8.size a ≤ S32768x8.size a
  hwx1_1 : ∀ i : grid1.Coords, EltTy.bits .f32 = 32 ∨ (Rect.block (s := S32768x8) S2048x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x8.size a ≤ S32768x8.size a
  hwx1_2 : ∀ i : grid1.Coords, EltTy.bits .f32 = 32 ∨ (Rect.block (s := S32768x8) S2048x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x768.size a ≤ S128x768.size a
  hwx1_3 : ∀ i : grid1.Coords, EltTy.bits .f32 = 32 ∨ (Rect.block (s := S128x768) S128x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x144.size a ≤ S16x144.size a
  hwx1_5 : ∀ i : grid1.Coords, EltTy.bits .f32 = 32 ∨ (Rect.block (s := S16x144) S16x144.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3x16.size a ≤ S3x16.size a
  hwx1_7 : ∀ i : grid1.Coords, EltTy.bits .f32 = 32 ∨ (Rect.block (s := S3x16) S3x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x3.size a ≤ S1x3.size a
  hwx1_8 : ∀ i : grid1.Coords, EltTy.bits .f32 = 32 ∨ (Rect.block (s := S1x3) S1x3.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x3.size a ≤ S32768x3.size a
  hwx1_9 : ∀ i : grid1.Coords, EltTy.bits .f32 = 32 ∨ (Rect.block (s := S32768x3) S2048x3.size (cc1_transform_9 i) (hinb1_9 i)).WholeWords (EltTy.packing .f32)

variable [Facts₀]

def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S2000x8_S8x8_S2000x8_1_0_0_1_n_n : DotDims S2000x8 S8x8 S2000x8 where
  lhsContracting := [1]
  rhsContracting := [0]
  lhsNonContracting := [0]
  rhsNonContracting := [1]
  lhsBatch := []
  rhsBatch := []
  wf := dot_S2000x8_S8x8_S2000x8_1_0_0_1_n_n_wf
def gather_S100000x8_S32768x1_S32768x8_1_0_n_n_0_1_18 : GatherDims S100000x8 S32768x1 S32768x8 where
  offsetDims := [1]
  collapsedSliceDims := [0]
  operandBatchingDims := []
  startIndicesBatchingDims := []
  startIndexMap := [0]
  indexVectorDim := 1
  sliceSizes := ![1, 8]
  wf := gather_S100000x8_S32768x1_S32768x8_1_0_n_n_0_1_18_wf
def dot_S2048x768_S768x128_S2048x128_1_0_0_1_n_n : DotDims S2048x768 S768x128 S2048x128 where
  lhsContracting := [1]
  rhsContracting := [0]
  lhsNonContracting := [0]
  rhsNonContracting := [1]
  lhsBatch := []
  rhsBatch := []
  wf := dot_S2048x768_S768x128_S2048x128_1_0_0_1_n_n_wf
def dot_S2048x144_S144x16_S2048x16_1_0_0_1_n_n : DotDims S2048x144 S144x16 S2048x16 where
  lhsContracting := [1]
  rhsContracting := [0]
  lhsNonContracting := [0]
  rhsNonContracting := [1]
  lhsBatch := []
  rhsBatch := []
  wf := dot_S2048x144_S144x16_S2048x16_1_0_0_1_n_n_wf
def dot_S2048x16_S16x3_S2048x3_1_0_0_1_n_n : DotDims S2048x16 S16x3 S2048x3 where
  lhsContracting := [1]
  rhsContracting := [0]
  lhsNonContracting := [0]
  rhsNonContracting := [1]
  lhsBatch := []
  rhsBatch := []
  wf := dot_S2048x16_S16x3_S2048x3_1_0_0_1_n_n_wf

abbrev win0_0 : Pipeline.Window sig grid0 :=
  Pipeline.Window.ofSpec (Memref.whole main_arg1) S2000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg11) S8x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg12) S8x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2048x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2048x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S2048x8.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S16x144.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S3x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41) S1x3.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v42) S2048x3.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S32768x768 : Shape := ⟨2, ![32768, 768]⟩
abbrev S100000x8 : Shape := ⟨2, ![100000, 8]⟩
abbrev S3200000 : Shape := ⟨1, ![3200000]⟩
abbrev S2x32768 : Shape := ⟨2, ![2, 32768]⟩
abbrev S128x768 : Shape := ⟨2, ![128, 768]⟩
abbrev S128 : Shape := ⟨1, ![128]⟩
abbrev S16x144 : Shape := ⟨2, ![16, 144]⟩
abbrev S16 : Shape := ⟨1, ![16]⟩
abbrev S3x16 : Shape := ⟨2, ![3, 16]⟩
abbrev S3 : Shape := ⟨1, ![3]⟩
abbrev S8x8 : Shape := ⟨2, ![8, 8]⟩
abbrev S8 : Shape := ⟨1, ![8]⟩
abbrev S_ : Shape := ⟨0, ![]⟩
abbrev S3200000x1 : Shape := ⟨2, ![3200000, 1]⟩
abbrev S3200000x8 : Shape := ⟨2, ![3200000, 8]⟩
abbrev S100000 : Shape := ⟨1, ![100000]⟩
abbrev S100000x1 : Shape := ⟨2, ![100000, 1]⟩
abbrev S1x8 : Shape := ⟨2, ![1, 8]⟩
abbrev S768x128 : Shape := ⟨2, ![768, 128]⟩
abbrev S32768x128 : Shape := ⟨2, ![32768, 128]⟩
abbrev S1x128 : Shape := ⟨2, ![1, 128]⟩
abbrev S1x32768 : Shape := ⟨2, ![1, 32768]⟩
abbrev S32768 : Shape := ⟨1, ![32768]⟩
abbrev S32768x1 : Shape := ⟨2, ![32768, 1]⟩
abbrev S32768x8 : Shape := ⟨2, ![32768, 8]⟩
abbrev S32768x144 : Shape := ⟨2, ![32768, 144]⟩
abbrev S144x16 : Shape := ⟨2, ![144, 16]⟩
abbrev S32768x16 : Shape := ⟨2, ![32768, 16]⟩
abbrev S1x16 : Shape := ⟨2, ![1, 16]⟩
abbrev S16x3 : Shape := ⟨2, ![16, 3]⟩
abbrev S32768x3 : Shape := ⟨2, ![32768, 3]⟩
abbrev S1x3 : Shape := ⟨2, ![1, 3]⟩

abbrev nBuf : Space → Nat
  | .hbm => 91
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S100000x8, .f32⟩
  | .hbm, ⟨2, _⟩ => ⟨S3200000, .i32⟩
  | .hbm, ⟨3, _⟩ => ⟨S3200000, .i32⟩
  | .hbm, ⟨4, _⟩ => ⟨S2x32768, .i32⟩
  | .hbm, ⟨5, _⟩ => ⟨S128x768, .f32⟩
  | .hbm, ⟨6, _⟩ => ⟨S128, .f32⟩
  | .hbm, ⟨7, _⟩ => ⟨S16x144, .f32⟩
  | .hbm, ⟨8, _⟩ => ⟨S16, .f32⟩
  | .hbm, ⟨9, _⟩ => ⟨S3x16, .f32⟩
  | .hbm, ⟨10, _⟩ => ⟨S3, .f32⟩
  | .hbm, ⟨11, _⟩ => ⟨S8x8, .f32⟩
  | .hbm, ⟨12, _⟩ => ⟨S8x8, .f32⟩
  | .hbm, ⟨13, _⟩ => ⟨S8, .f32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x8, .f32⟩
  | .hbm, ⟨23, _⟩ => ⟨S_, .f32⟩
  | .hbm, ⟨24, _⟩ => ⟨S100000x8, .f32⟩
  | .hbm, ⟨25, _⟩ => ⟨S3200000x1, .i32⟩
  | .hbm, ⟨26, _⟩ => ⟨S100000x8, .f32⟩
  | .hbm, ⟨27, _⟩ => ⟨S_, .f32⟩
  | .hbm, ⟨28, _⟩ => ⟨S3200000, .f32⟩
  | .hbm, ⟨29, _⟩ => ⟨S_, .f32⟩
  | .hbm, ⟨30, _⟩ => ⟨S100000, .f32⟩
  | .hbm, ⟨31, _⟩ => ⟨S3200000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x8, .f32⟩
  | .hbm, ⟨38, _⟩ => ⟨S100000x8, .f32⟩
  | .hbm, ⟨39, _⟩ => ⟨S8x8, .f32⟩
  | .hbm, ⟨40, _⟩ => ⟨S100000x8, .f32⟩
  | .hbm, ⟨41, _⟩ => ⟨S8x8, .f32⟩
  | .hbm, ⟨42, _⟩ => ⟨S100000x8, .f32⟩
  | .hbm, ⟨43, _⟩ => ⟨S100000x8, .f32⟩
  | .hbm, ⟨44, _⟩ => ⟨S1x8, .f32⟩
  | .hbm, ⟨45, _⟩ => ⟨S100000x8, .f32⟩
  | .hbm, ⟨46, _⟩ => ⟨S100000x8, .f32⟩
  | .hbm, ⟨47, _⟩ => ⟨S768x128, .f32⟩
  | .hbm, ⟨48, _⟩ => ⟨S32768x128, .f32⟩
  | .hbm, ⟨49, _⟩ => ⟨S1x128, .f32⟩
  | .hbm, ⟨50, _⟩ => ⟨S32768x128, .f32⟩
  | .hbm, ⟨51, _⟩ => ⟨S32768x128, .f32⟩
  | .hbm, ⟨52, _⟩ => ⟨S_, .f32⟩
  | .hbm, ⟨53, _⟩ => ⟨S32768x128, .f32⟩
  | .hbm, ⟨54, _⟩ => ⟨S32768x128, .f32⟩
  | .hbm, ⟨55, _⟩ => ⟨S1x32768, .i32⟩
  | .hbm, ⟨56, _⟩ => ⟨S32768, .i32⟩
  | .hbm, ⟨57, _⟩ => ⟨S_, .i32⟩
  | .hbm, ⟨58, _⟩ => ⟨S32768, .i32⟩
  | .hbm, ⟨59, _⟩ => ⟨S32768, .i1⟩
  | .hbm, ⟨60, _⟩ => ⟨S_, .i32⟩
  | .hbm, ⟨61, _⟩ => ⟨S32768, .i32⟩
  | .hbm, ⟨62, _⟩ => ⟨S32768, .i32⟩
  | .hbm, ⟨63, _⟩ => ⟨S32768, .i32⟩
  | .hbm, ⟨64, _⟩ => ⟨S32768x1, .i32⟩
  | .hbm, ⟨65, _⟩ => ⟨S32768x8, .f32⟩
  | .hbm, ⟨66, _⟩ => ⟨S1x32768, .i32⟩
  | .hbm, ⟨67, _⟩ => ⟨S32768, .i32⟩
  | .hbm, ⟨68, _⟩ => ⟨S_, .i32⟩
  | .hbm, ⟨69, _⟩ => ⟨S32768, .i32⟩
  | .hbm, ⟨70, _⟩ => ⟨S32768, .i1⟩
  | .hbm, ⟨71, _⟩ => ⟨S_, .i32⟩
  | .hbm, ⟨72, _⟩ => ⟨S32768, .i32⟩
  | .hbm, ⟨73, _⟩ => ⟨S32768, .i32⟩
  | .hbm, ⟨74, _⟩ => ⟨S32768, .i32⟩
  | .hbm, ⟨75, _⟩ => ⟨S32768x1, .i32⟩
  | .hbm, ⟨76, _⟩ => ⟨S32768x8, .f32⟩
  | .hbm, ⟨77, _⟩ => ⟨S32768x144, .f32⟩
  | .hbm, ⟨78, _⟩ => ⟨S144x16, .f32⟩
  | .hbm, ⟨79, _⟩ => ⟨S32768x16, .f32⟩
  | .hbm, ⟨80, _⟩ => ⟨S1x16, .f32⟩
  | .hbm, ⟨81, _⟩ => ⟨S32768x16, .f32⟩
  | .hbm, ⟨82, _⟩ => ⟨S32768x16, .f32⟩
  | .hbm, ⟨83, _⟩ => ⟨S_, .f32⟩
  | .hbm, ⟨84, _⟩ => ⟨S32768x16, .f32⟩
  | .hbm, ⟨85, _⟩ => ⟨S32768x16, .f32⟩
  | .hbm, ⟨86, _⟩ => ⟨S16x3, .f32⟩
  | .hbm, ⟨87, _⟩ => ⟨S32768x3, .f32⟩
  | .hbm, ⟨88, _⟩ => ⟨S1x3, .f32⟩
  | .hbm, ⟨89, _⟩ => ⟨S32768x3, .f32⟩
  | .hbm, ⟨90, _⟩ => ⟨S32768x3, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call0_cst : Ref sig .tc := ⟨.hbm, 52, rfl⟩
abbrev main_call0_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_4 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_6 : Ref sig .tc := ⟨.hbm, 68, rfl⟩
abbrev main_v44 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call1_cst : Ref sig .tc := ⟨.hbm, 83, rfl⟩
abbrev main_call1_v0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  transposes_S8x8_S8x8_1_0 : S8x8.Transposes [1, 0] S8x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  transposes_S128x768_S768x128_1_0 : S128x768.Transposes [1, 0] S768x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  slices_S2x32768_S1x32768_0_0 : S2x32768.Slices ![0, 0] S1x32768
  shapeCasts_S1x32768_S32768 : S1x32768.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  slices_S2x32768_S1x32768_1_0 : S2x32768.Slices ![1, 0] S1x32768
  concatenates_S32768x128_S32768x8_S32768x8_S32768x144_d1 : Shape.Concatenates [S32768x128, S32768x8, S32768x8] S32768x144 1
  transposes_S16x144_S144x16_1_0 : S16x144.Transposes [1, 0] S144x16
  bcast_S16_S1x16_1 : S16.BroadcastsInDim S1x16 (![1] : Fin 1 → Fin S1x16.rank)
  bcast_S1x16_S32768x16_0_1 : S1x16.BroadcastsInDim S32768x16 (![0, 1] : Fin 2 → Fin S32768x16.rank)
  bcast_S_S32768x16 : S_.BroadcastsInDim S32768x16 (![] : Fin 0 → Fin S32768x16.rank)
  transposes_S3x16_S16x3_1_0 : S3x16.Transposes [1, 0] S16x3
  bcast_S3_S1x3_1 : S3.BroadcastsInDim S1x3 (![1] : Fin 1 → Fin S1x3.rank)
  bcast_S1x3_S32768x3_0_1 : S1x3.BroadcastsInDim S32768x3 (![0, 1] : Fin 2 → Fin S32768x3.rank)
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  scatter_S100000_S3200000x1_S3200000_n_0_0_1_wf : ScatterDims.WF S100000 S3200000x1 S3200000 [] [0] [0] 1
  dot_S100000x8_S8x8_S100000x8_1_0_0_1_n_n_wf : DotDims.WF S100000x8 S8x8 S100000x8 [1] [0] [0] [1] [] []
  dot_S32768x768_S768x128_S32768x128_1_0_0_1_n_n_wf : DotDims.WF S32768x768 S768x128 S32768x128 [1] [0] [0] [1] [] []
  gather_S100000x8_S32768x1_S32768x8_1_0_n_n_0_1_18_wf : GatherDims.WF S100000x8 S32768x1 S32768x8 [1] [0] [] [0] [] 1 ![1, 8]
  dot_S32768x144_S144x16_S32768x16_1_0_0_1_n_n_wf : DotDims.WF S32768x144 S144x16 S32768x16 [1] [0] [0] [1] [] []
  dot_S32768x16_S16x3_S32768x3_1_0_0_1_n_n_wf : DotDims.WF S32768x16 S16x3 S32768x3 [1] [0] [0] [1] [] []

variable [Facts₀]

def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x8_S8x8_S100000x8_1_0_0_1_n_n : DotDims S100000x8 S8x8 S100000x8 where
  lhsContracting := [1]
  rhsContracting := [0]
  lhsNonContracting := [0]
  rhsNonContracting := [1]
  lhsBatch := []
  rhsBatch := []
  wf := dot_S100000x8_S8x8_S100000x8_1_0_0_1_n_n_wf
def dot_S32768x768_S768x128_S32768x128_1_0_0_1_n_n : DotDims S32768x768 S768x128 S32768x128 where
  lhsContracting := [1]
  rhsContracting := [0]
  lhsNonContracting := [0]
  rhsNonContracting := [1]
  lhsBatch := []
  rhsBatch := []
  wf := dot_S32768x768_S768x128_S32768x128_1_0_0_1_n_n_wf
def gather_S100000x8_S32768x1_S32768x8_1_0_n_n_0_1_18 : GatherDims S100000x8 S32768x1 S32768x8 where
  offsetDims := [1]
  collapsedSliceDims := [0]
  operandBatchingDims := []
  startIndicesBatchingDims := []
  startIndexMap := [0]
  indexVectorDim := 1
  sliceSizes := ![1, 8]
  wf := gather_S100000x8_S32768x1_S32768x8_1_0_n_n_0_1_18_wf
def dot_S32768x144_S144x16_S32768x16_1_0_0_1_n_n : DotDims S32768x144 S144x16 S32768x16 where
  lhsContracting := [1]
  rhsContracting := [0]
  lhsNonContracting := [0]
  rhsNonContracting := [1]
  lhsBatch := []
  rhsBatch := []
  wf := dot_S32768x144_S144x16_S32768x16_1_0_0_1_n_n_wf
def dot_S32768x16_S16x3_S32768x3_1_0_0_1_n_n : DotDims S32768x16 S16x3 S32768x3 where
  lhsContracting := [1]
  rhsContracting := [0]
  lhsNonContracting := [0]
  rhsNonContracting := [1]
  lhsBatch := []
  rhsBatch := []
  wf := dot_S32768x16_S16x3_S32768x3_1_0_0_1_n_n_wf

class Facts : Prop extends Facts₀ where

variable [Facts]
-- ==== Proof.KernelRun.lean ====
/-
  The idealized kernel program's run with its result named. Every weakly fair execution of the program terminates,
  nothing faulting, with the argument arrays as launched and the result array holding what the program's last
  boundary's contents give it: the contents after the second region's write-backs, read at the result's buffer.
  The launch is the one that shows the arguments unchanged; the result is read off the same final state, where every
  buffer that is not a kernel's scratch holds its contents at the last boundary.
-/
import proofs.«173503_j90993177133266_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result at the last boundary's contents, the arguments unchanged. -/
theorem run_result : θ_run defs (onTc (τ := τ) (main (F := F))) ⟨m, fun _ => 0, ρ⟩ (fun r => ∀ c : Dev nD,
      r.2.mem ((c.tc : Thread nD τ).loc main_v42) = W4 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v42 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.Run

end
-- ==== Proof.LibDot.lean ====
/-
  A matrix product with one contracted axis, read at an index as a sum over the contracted extent.
  For dimension numbers that contract the left operand's axis 1 with the right operand's axis 0, with no batch
  axes — the plain product of an [M, K] matrix with a [K, N] matrix — the operand indices at result index (p, q) and
  contraction index k are (p, k) and (k, q); so the sum over the contraction shape is the sum over k < K of
  lhs (p, k) · rhs (k, q). Both a kernel's accumulating product into a zero accumulator and the host's product
  without an accumulator are that sum at the extended reals.
-/
import Idealize.ShloMosaic.Lib.ValueIdx
import Idealize.ShloMosaic.PureOps.Ideal.Laws
import Idealize.ShloMosaic.Lib.KernelVsHost

noncomputable section

namespace Idealize.ShloMosaic.LibDot

open Idealize.ShloMosaic Idealize.ShloMosaic.ValueIdx

variable {sl sr so : Shape} (d : DotDims sl sr so)

/-- A non-contracting, non-batch axis of the left operand reads the result index at its position. -/
theorem lhsIdx_val_of_non {a : Fin sl.rank} (hb : a ∉ d.lhsBatch) (hn : a ∈ d.lhsNonContracting)
    (j : so.Idx) (k : d.contr.Idx) (p : Nat) (hp : p < so.rank) (hpe : d.lhsBatch.length + d.lhsNonContracting.idxOf a = p) :
    (d.lhsIdx j k a).val = (j ⟨p, hp⟩).val := by
  subst hpe
  unfold DotDims.lhsIdx
  rw [dif_neg hb, dif_pos hn]
  rfl

/-- A non-contracting, non-batch axis of the right operand reads the result index at its position. -/
theorem rhsIdx_val_of_non {a : Fin sr.rank} (hb : a ∉ d.rhsBatch) (hn : a ∈ d.rhsNonContracting)
    (j : so.Idx) (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold DotDims.rhsIdx
  rw [dif_neg hb, dif_pos hn]
  rfl

/-- The plain product's sum over the contraction shape is the sum over the contracted extent. -/
theorem sum_plain {M K N : ℕ} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 k q := by
    funext a; apply Fin.ext
    match a with
    | ⟨0, _⟩ =>
      exact (d.rhsIdx_val_of_single (cr := 0) hrc _ _).trans (contrEquiv1_symm_val d K hr hs k)
    | ⟨1, _⟩ =>
      exact rhsIdx_val_of_non d (a := 1) (by rw [hrb]; exact List.not_mem_nil) (by rw [hrn]; exact List.mem_singleton.mpr rfl) _ _ 1 (Nat.one_lt_two)
        (by rw [hlb, hln, hrn]; rfl)
  rw [hl, hrr]

/-- A kernel's product accumulated into the zero splat, read at (p, q). -/
theorem matmul_zero_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) :=
  (Ideal.matmul_constant_zero_apply d prec lhs rhs (ix2 p q)).trans (sum_plain d hlc hrc hlb hrb hln hrn lhs rhs p q)

/-- The host's product, read at (p, q). -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  rw [← matmul_zero_eq_dotGeneral]
  exact matmul_zero_plain d hlc hrc hlb hrb hln hrn prec lhs rhs p q

end Idealize.ShloMosaic.LibDot

end
-- ==== Proof.LibLinearT.lean ====
/-
  A linear layer whose weight is stored [out, in]: the product of an [M, K] matrix x with the transpose of an
  [N, K] matrix W, read at (p, q) as the sum over k < K of x (p, k) · W (q, k); a bias row added to every row;
  the rectifier max(·, 0); and three blocks of columns laid side by side. Each is stated once as a function of
  whole arrays over the extended reals, and the two spellings a program may use for it — a kernel's product into
  a zero accumulator after narrowing both operands and transposing the weight, against the host's product of the
  operands with the weight transposed; a kernel's one-row broadcast against the host's two broadcasts of a vector —
  are shown to be that function. All of them act row by row: row p of the result depends on row p of the row-indexed
  operands only, so a block of rows of the operands gives the same block of rows of the result.
-/
import Idealize.ShloMosaic.Lib.ValueIdx
import Idealize.ShloMosaic.Lib.ValueLayout
import Idealize.ShloMosaic.Lib.Pipeline.Value
import Idealize.ShloMosaic.PureOps.Ideal.Laws
import proofs.«173503_j90993177133266_2_alg».proof.Proof.LibDot

noncomputable section

open scoped BigOperators

namespace Idealize.ShloMosaic.LibLinearT

open Idealize.ShloMosaic Idealize.ShloMosaic.ValueIdx

/-! ## The functions -/

/-- x · Wᵀ: entry (p, q) is the sum over k of x (p, k) · W (q, k). -/
def matT {M K N : ℕ} (x : (⟨2, ![M, K]⟩ : Shape).Idx → EReal) (W : (⟨2, ![N, K]⟩ : Shape).Idx → EReal) :
    (⟨2, ![M, N]⟩ : Shape).Idx → EReal :=
  fun i => ∑ k : Fin K, x (ix2 (i 0) k) * W (ix2 (i 1) k)

theorem matT_apply {M K N : ℕ} (x : (⟨2, ![M, K]⟩ : Shape).Idx → EReal) (W : (⟨2, ![N, K]⟩ : Shape).Idx → EReal)
    (p : Fin M) (q : Fin N) : matT x W (ix2 p q) = ∑ k : Fin K, x (ix2 p k) * W (ix2 q k) := rfl

/-- A vector of length N as every row of an [M, N] array. -/
def biasRow {M N : ℕ} (b : (⟨1, ![N]⟩ : Shape).Idx → EReal) : (⟨2, ![M, N]⟩ : Shape).Idx → EReal :=
  fun i => b (ix1 (i 1))

theorem biasRow_apply {M N : ℕ} (b : (⟨1, ![N]⟩ : Shape).Idx → EReal) (p : Fin M) (q : Fin N) :
    biasRow (M := M) b (ix2 p q) = b (ix1 q) := rfl

/-- The one row of a [1, N] array, as a vector of length N. -/
def rowOf {N : ℕ} (b : (⟨2, ![1, N]⟩ : Shape).Idx → EReal) : (⟨1, ![N]⟩ : Shape).Idx → EReal :=
  fun i => b (ix2 (0 : Fin 1) (i 0))

/-- A vector reshaped to one row: that row is the vector. -/
theorem rowOf_shapeCast {N : ℕ} (b : (⟨1, ![N]⟩ : Shape).Idx → EReal)
    (h : (⟨1, ![N]⟩ : Shape).ShapeCasts ⟨2, ![1, N]⟩) : rowOf (shapeCast ⟨2, ![1, N]⟩ b h) = b := by
  funext i
  refine (shapeCast_addUnit_apply ![N] b h (ix2 (0 : Fin 1) (i 0))).trans (congrArg b (funext fun a => ?_))
  match a with
  | ⟨0, _⟩ => rfl

/-- x · Wᵀ + b. -/
def linT {M K N : ℕ} (x : (⟨2, ![M, K]⟩ : Shape).Idx → EReal) (W : (⟨2, ![N, K]⟩ : Shape).Idx → EReal)
    (b : (⟨1, ![N]⟩ : Shape).Idx → EReal) : (⟨2, ![M, N]⟩ : Shape).Idx → EReal :=
  fun i => matT x W i + biasRow b i

/-- max(x, 0), with the zero spelt as the float word it is printed with. -/
def relu {s : Shape} (x : s.Idx → EReal) : s.Idx → EReal :=
  fun i => max (x i) (Ideal.ofBits .f32 0x00000000#32)

/-- Three blocks of columns side by side: columns [0, A) from x, [A, A + B) from y, [A + B, A + B + C) from z. -/
def cat3 {M A B C L : ℕ} (x : (⟨2, ![M, A]⟩ : Shape).Idx → EReal) (y : (⟨2, ![M, B]⟩ : Shape).Idx → EReal)
    (z : (⟨2, ![M, C]⟩ : Shape).Idx → EReal) : (⟨2, ![M, L]⟩ : Shape).Idx → EReal :=
  fun j =>
    if h1 : (j 1).val < A then x (ix2 (j 0) ⟨(j 1).val, h1⟩)
    else if h2 : (j 1).val < A + B then y (ix2 (j 0) ⟨(j 1).val - A, by omega⟩)
    else if h3 : (j 1).val < A + B + C then z (ix2 (j 0) ⟨(j 1).val - (A + B), by omega⟩)
    else 0

/-! ## The kernel's and the host's spellings -/

section Spellings

variable {M K N : ℕ} (d : DotDims ⟨2, ![M, K]⟩ ⟨2, ![K, N]⟩ ⟨2, ![M, N]⟩)
  (hlc : d.lhsContracting = [1]) (hrc : d.rhsContracting = [0])
  (hlb : d.lhsBatch = []) (hrb : d.rhsBatch = []) (hln : d.lhsNonContracting = [0]) (hrn : d.rhsNonContracting = [1])

include hlc hrc hlb hrb hln hrn

/-- A kernel's product of x with the transposed weight, both narrowed first, into the zero accumulator. -/
theorem kernel_matT (x : FVec Ideal ⟨2, ![M, K]⟩ .f32) (W : FVec Ideal ⟨2, ![N, K]⟩ .f32)
    (hx : FTy.bits .bf16 < FTy.bits .f32) (hW : FTy.bits .bf16 < FTy.bits .f32)
    (hT : (⟨2, ![N, K]⟩ : Shape).Transposes [1, 0] ⟨2, ![K, N]⟩) :
    matmul d none (truncf .bf16 x hx) (transpose ⟨2, ![K, N]⟩ [1, 0] (truncf .bf16 W hW) hT)
        (constant ⟨2, ![M, N]⟩ .f32 0x00000000#32) = matT x W := by
  funext i
  obtain ⟨p, q, rfl⟩ : ∃ (p : Fin M) (q : Fin N), i = ix2 p q := ⟨i 0, i 1, eq_ix2 i⟩
  rw [LibDot.matmul_zero_plain d hlc hrc hlb hrb hln hrn, matT_apply]
  refine Finset.sum_congr rfl fun k _ => ?_
  rw [transpose_ix2_apply]
  rfl

/-- The same with the left operand already narrowed (a computed value narrowed before the product). -/
theorem kernel_matT' (x : FVec Ideal ⟨2, ![M, K]⟩ .bf16) (W : FVec Ideal ⟨2, ![N, K]⟩ .f32)
    (hW : FTy.bits .bf16 < FTy.bits .f32)
    (hT : (⟨2, ![N, K]⟩ : Shape).Transposes [1, 0] ⟨2, ![K, N]⟩) :
    matmul d none x (transpose ⟨2, ![K, N]⟩ [1, 0] (truncf .bf16 W hW) hT)
        (constant ⟨2, ![M, N]⟩ .f32 0x00000000#32) = matT x W := by
  funext i
  obtain ⟨p, q, rfl⟩ : ∃ (p : Fin M) (q : Fin N), i = ix2 p q := ⟨i 0, i 1, eq_ix2 i⟩
  rw [LibDot.matmul_zero_plain d hlc hrc hlb hrb hln hrn, matT_apply]
  refine Finset.sum_congr rfl fun k _ => ?_
  rw [transpose_ix2_apply]
  rfl

/-- The host's product of x with the transposed weight. -/
theorem host_matT (x : FVec Ideal ⟨2, ![M, K]⟩ .f32) (W : FVec Ideal ⟨2, ![N, K]⟩ .f32)
    (hT : (⟨2, ![N, K]⟩ : Shape).Transposes [1, 0] ⟨2, ![K, N]⟩) :
    Host.dotGeneral d none x (transpose ⟨2, ![K, N]⟩ [1, 0] W hT) = matT x W := by
  funext i
  obtain ⟨p, q, rfl⟩ : ∃ (p : Fin M) (q : Fin N), i = ix2 p q := ⟨i 0, i 1, eq_ix2 i⟩
  rw [LibDot.dotGeneral_plain d hlc hrc hlb hrb hln hrn, matT_apply]
  refine Finset.sum_congr rfl fun k _ => ?_
  rw [transpose_ix2_apply]

end Spellings

/-- A kernel's bias: the [1, N] block broadcast over the rows. -/
theorem kernel_biasRow {M N : ℕ} (b : (⟨2, ![1, N]⟩ : Shape).Idx → EReal)
    (hs : (⟨2, ![1, N]⟩ : Shape).ShapeCasts ⟨2, ![1, N]⟩) (hb : (⟨2, ![1, N]⟩ : Shape).Broadcasts ⟨2, ![M, N]⟩) :
    broadcastTo ⟨2, ![M, N]⟩ (shapeCast ⟨2, ![1, N]⟩ b hs) hb = biasRow (rowOf b) := by
  funext i
  obtain ⟨p, q, rfl⟩ : ∃ (p : Fin M) (q : Fin N), i = ix2 p q := ⟨i 0, i 1, eq_ix2 i⟩
  rw [broadcastTo_1b_ab_apply, shapeCast_self]
  rfl

/-- The host's bias: the vector made a row, the row broadcast over the rows. -/
theorem host_biasRow {M N : ℕ} (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) :
    broadcastInDim ⟨2, ![M, N]⟩ ![0, 1] h2 (broadcastInDim ⟨2, ![1, N]⟩ ![1] h1 b) = biasRow b := by
  funext i
  obtain ⟨p, q, rfl⟩ : ∃ (p : Fin M) (q : Fin N), i = ix2 p q := ⟨i 0, i 1, eq_ix2 i⟩
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
      broadcastInDim_apply ![1] h1 b (ix2 (0 : Fin 1) q) (ix1 q) (fun a => by
        match a with
        | ⟨0, _⟩ =>
          show q.val = if N = 1 then 0 else q.val
          split
          · have := q.isLt; omega
          · rfl)]
  rfl

/-- A kernel's rectifier: the maximum with the splat of the zero word. -/
theorem kernel_relu {s : Shape} (x : FVec Ideal s .f32) :
    maximumf x (broadcast s (Scalar.ofBits (F := Ideal) .f32 0x00000000#32)) = relu x := rfl

/-- The host's rectifier: the maximum with the broadcast of the zero constant. -/
theorem host_relu {s : Shape} (x : FVec Ideal s .f32) (h : (⟨0, ![]⟩ : Shape).BroadcastsInDim s ![]) :
    maximumf x (broadcastInDim s ![] h (constant (F := Ideal) ⟨0, ![]⟩ .f32 0x00000000#32)) = relu x := rfl

/-- Three arrays joined along the columns are `cat3` of them. -/
theorem concatenate_cols3 {M A B C L : ℕ} (hL : A + B + C = L)
    (x : (⟨2, ![M, A]⟩ : Shape).Idx → EReal) (y : (⟨2, ![M, B]⟩ : Shape).Idx → EReal) (z : (⟨2, ![M, C]⟩ : Shape).Idx → EReal)
    (h : Shape.Concatenates (([⟨⟨2, ![M, A]⟩, x⟩, ⟨⟨2, ![M, B]⟩, y⟩, ⟨⟨2, ![M, C]⟩, z⟩] :
      List ((s : Shape) × (s.Idx → EReal))).map (·.1)) ⟨2, ![M, L]⟩ 1) :
    concatenate ⟨2, ![M, L]⟩ 1 [⟨⟨2, ![M, A]⟩, x⟩, ⟨⟨2, ![M, B]⟩, y⟩, ⟨⟨2, ![M, C]⟩, z⟩] h = cat3 x y z := by
  funext j
  obtain ⟨p, k, rfl⟩ : ∃ (p : Fin M) (k : Fin L), j = ix2 p k := ⟨j 0, j 1, eq_ix2 j⟩
  unfold cat3
  have hk : k.val < A + B + C := by have := k.isLt; omega
  by_cases h1 : k.val < A
  · rw [dif_pos (show ((ix2 p k : (⟨2, ![M, L]⟩ : Shape).Idx) 1).val < A from h1)]
    exact concatenate_apply_piece 1 _ h (ix2 p k) 0 (by show (0 : ℕ) < 3; omega) ⟨2, ![M, A]⟩ x rfl rfl 0 rfl
      (ix2 p ⟨k.val, h1⟩) (fun b hb => by
        match b with
        | ⟨0, _⟩ => rfl
        | ⟨1, _⟩ => exact absurd rfl hb) (by show 0 + k.val = k.val; omega)
  · rw [dif_neg (show ¬ ((ix2 p k : (⟨2, ![M, L]⟩ : Shape).Idx) 1).val < A from h1)]
    by_cases h2 : k.val < A + B
    · rw [dif_pos (show ((ix2 p k : (⟨2, ![M, L]⟩ : Shape).Idx) 1).val < A + B from h2)]
      exact concatenate_apply_piece 1 _ h (ix2 p k) 1 (by show (1 : ℕ) < 3; omega) ⟨2, ![M, B]⟩ y rfl rfl A (by simp)
        (ix2 p ⟨k.val - A, by omega⟩) (fun b hb => by
          match b with
          | ⟨0, _⟩ => rfl
          | ⟨1, _⟩ => exact absurd rfl hb) (by show A + (k.val - A) = k.val; omega)
    · rw [dif_neg (show ¬ ((ix2 p k : (⟨2, ![M, L]⟩ : Shape).Idx) 1).val < A + B from h2),
        dif_pos (show ((ix2 p k : (⟨2, ![M, L]⟩ : Shape).Idx) 1).val < A + B + C from hk)]
      exact concatenate_apply_piece 1 _ h (ix2 p k) 2 (by show (2 : ℕ) < 3; omega) ⟨2, ![M, C]⟩ z rfl rfl (A + B) (by simp)
        (ix2 p ⟨k.val - (A + B), by omega⟩) (fun b hb => by
          match b with
          | ⟨0, _⟩ => rfl
          | ⟨1, _⟩ => exact absurd rfl hb) (by show A + B + (k.val - (A + B)) = k.val; omega)

/-! ## Row by row -/

/-- Row r of x' is row p of x. -/
def RowEq {M' M K : ℕ} (x' : (⟨2, ![M', K]⟩ : Shape).Idx → EReal) (x : (⟨2, ![M, K]⟩ : Shape).Idx → EReal)
    (r : Fin M') (p : Fin M) : Prop :=
  ∀ k : Fin K, x' (ix2 r k) = x (ix2 p k)

section Rows

variable {M' M : ℕ} {r : Fin M'} {p : Fin M}

/-- Two rows that agree, read at any two indices on those rows with the same column. -/
theorem RowEq.apply {K : ℕ} {x' : (⟨2, ![M', K]⟩ : Shape).Idx → EReal} {x : (⟨2, ![M, K]⟩ : Shape).Idx → EReal}
    (h : RowEq x' x r p) (j : (⟨2, ![M', K]⟩ : Shape).Idx) (i : (⟨2, ![M, K]⟩ : Shape).Idx)
    (hj : (j 0).val = r.val) (hi : (i 0).val = p.val) (hk : (i 1).val = (j 1).val) : x' j = x i := by
  have ej : j = ix2 r (j 1) := by
    funext a
    match a with
    | ⟨0, _⟩ => exact Fin.ext hj
    | ⟨1, _⟩ => rfl
  have ei : i = ix2 p (j 1) := by
    funext a
    match a with
    | ⟨0, _⟩ => exact Fin.ext hi
    | ⟨1, _⟩ => exact Fin.ext hk
  calc x' j = x' (ix2 r (j 1)) := congrArg x' ej
    _ = x (ix2 p (j 1)) := h (j 1)
    _ = x i := (congrArg x ei).symm

theorem RowEq.matT {K N : ℕ} {x' : (⟨2, ![M', K]⟩ : Shape).Idx → EReal} {x : (⟨2, ![M, K]⟩ : Shape).Idx → EReal}
    (h : RowEq x' x r p) (W : (⟨2, ![N, K]⟩ : Shape).Idx → EReal) :
    RowEq (LibLinearT.matT x' W) (LibLinearT.matT x W) r p := fun q => by
  rw [matT_apply, matT_apply]
  exact Finset.sum_congr rfl fun k _ => by rw [h k]

theorem RowEq.linT {K N : ℕ} {x' : (⟨2, ![M', K]⟩ : Shape).Idx → EReal} {x : (⟨2, ![M, K]⟩ : Shape).Idx → EReal}
    (h : RowEq x' x r p) (W : (⟨2, ![N, K]⟩ : Shape).Idx → EReal) (b : (⟨1, ![N]⟩ : Shape).Idx → EReal) :
    RowEq (LibLinearT.linT x' W b) (LibLinearT.linT x W b) r p := fun q => by
  show LibLinearT.matT x' W (ix2 r q) + b (ix1 q) = LibLinearT.matT x W (ix2 p q) + b (ix1 q)
  rw [h.matT W q]

theorem RowEq.relu {K : ℕ} {x' : (⟨2, ![M', K]⟩ : Shape).Idx → EReal} {x : (⟨2, ![M, K]⟩ : Shape).Idx → EReal}
    (h : RowEq x' x r p) : RowEq (LibLinearT.relu x') (LibLinearT.relu x) r p := fun k => by
  show max (x' (ix2 r k)) _ = max (x (ix2 p k)) _
  rw [h k]

theorem RowEq.cat3 {A B C L : ℕ}
    {x' : (⟨2, ![M', A]⟩ : Shape).Idx → EReal} {x : (⟨2, ![M, A]⟩ : Shape).Idx → EReal}
    {y' : (⟨2, ![M', B]⟩ : Shape).Idx → EReal} {y : (⟨2, ![M, B]⟩ : Shape).Idx → EReal}
    {z' : (⟨2, ![M', C]⟩ : Shape).Idx → EReal} {z : (⟨2, ![M, C]⟩ : Shape).Idx → EReal}
    (hx : RowEq x' x r p) (hy : RowEq y' y r p) (hz : RowEq z' z r p) :
    RowEq (LibLinearT.cat3 (L := L) x' y' z') (LibLinearT.cat3 (L := L) x y z) r p := fun k => by
  unfold LibLinearT.cat3
  by_cases h1 : k.val < A
  · rw [dif_pos (show ((ix2 r k : (⟨2, ![M', L]⟩ : Shape).Idx) 1).val < A from h1),
      dif_pos (show ((ix2 p k : (⟨2, ![M, L]⟩ : Shape).Idx) 1).val < A from h1)]
    exact hx ⟨k.val, h1⟩
  · rw [dif_neg (show ¬ ((ix2 r k : (⟨2, ![M', L]⟩ : Shape).Idx) 1).val < A from h1),
      dif_neg (show ¬ ((ix2 p k : (⟨2, ![M, L]⟩ : Shape).Idx) 1).val < A from h1)]
    by_cases h2 : k.val < A + B
    · rw [dif_pos (show ((ix2 r k : (⟨2, ![M', L]⟩ : Shape).Idx) 1).val < A + B from h2),
        dif_pos (show ((ix2 p k : (⟨2, ![M, L]⟩ : Shape).Idx) 1).val < A + B from h2)]
      exact hy ⟨k.val - A, by omega⟩
    · rw [dif_neg (show ¬ ((ix2 r k : (⟨2, ![M', L]⟩ : Shape).Idx) 1).val < A + B from h2),
        dif_neg (show ¬ ((ix2 p k : (⟨2, ![M, L]⟩ : Shape).Idx) 1).val < A + B from h2)]
      by_cases h3 : k.val < A + B + C
      · rw [dif_pos (show ((ix2 r k : (⟨2, ![M', L]⟩ : Shape).Idx) 1).val < A + B + C from h3),
          dif_pos (show ((ix2 p k : (⟨2, ![M, L]⟩ : Shape).Idx) 1).val < A + B + C from h3)]
        exact hz ⟨k.val - (A + B), by omega⟩
      · rw [dif_neg (show ¬ ((ix2 r k : (⟨2, ![M', L]⟩ : Shape).Idx) 1).val < A + B + C from h3),
          dif_neg (show ¬ ((ix2 p k : (⟨2, ![M, L]⟩ : Shape).Idx) 1).val < A + B + C from h3)]

end Rows

end Idealize.ShloMosaic.LibLinearT

end
-- ==== Proof.Spec.lean ====
/-
  The computation's two stages as functions of whole arrays over the extended reals, for any number of rows.
  The neighbourhood update of a node table: row n of the result is  node[n] · W_selfᵀ + h_neigh[n] · W_neighᵀ + bias.
  The perceptron over a batch: row p of the result is
      relu( [ relu(bert[p] · W1ᵀ + b1) | head[p] | tail[p] ] · W2ᵀ + b2 ) · W3ᵀ + b3 .
  Both act row by row, so a block of rows of the row-indexed operands gives the same block of rows of the result:
  that is what lets a kernel compute them one block of rows at a time.
-/
import proofs.«173503_j90993177133266_2_alg».proof.Proof.LibLinearT

noncomputable section

namespace Cert.Spec

open Idealize.ShloMosaic Idealize.ShloMosaic.ValueIdx Idealize.ShloMosaic.LibLinearT

/-- The neighbourhood update: node · W_selfᵀ + h_neigh · W_neighᵀ + bias. -/
def sageUpdate {M : ℕ} (node hn : (⟨2, ![M, 8]⟩ : Shape).Idx → EReal) (Ws Wn : (⟨2, ![8, 8]⟩ : Shape).Idx → EReal)
    (b : (⟨1, ![8]⟩ : Shape).Idx → EReal) : (⟨2, ![M, 8]⟩ : Shape).Idx → EReal :=
  fun i => (matT node Ws i + matT hn Wn i) + biasRow b i

/-- The three-layer perceptron over the features joined with the two gathered node rows. -/
def mlp {M : ℕ} (bert : (⟨2, ![M, 768]⟩ : Shape).Idx → EReal) (head tail : (⟨2, ![M, 8]⟩ : Shape).Idx → EReal)
    (W1 : (⟨2, ![128, 768]⟩ : Shape).Idx → EReal) (b1 : (⟨1, ![128]⟩ : Shape).Idx → EReal)
    (W2 : (⟨2, ![16, 144]⟩ : Shape).Idx → EReal) (b2 : (⟨1, ![16]⟩ : Shape).Idx → EReal)
    (W3 : (⟨2, ![3, 16]⟩ : Shape).Idx → EReal) (b3 : (⟨1, ![3]⟩ : Shape).Idx → EReal) :
    (⟨2, ![M, 3]⟩ : Shape).Idx → EReal :=
  linT (relu (linT (cat3 (L := 144) (relu (linT bert W1 b1)) head tail) W2 b2)) W3 b3

section Rows

variable {M' M : ℕ} {r : Fin M'} {p : Fin M}

/-- Row r of the update of two blocks is row p of the update of the arrays, when the blocks' rows r are the arrays' rows p. -/
theorem sageUpdate_row {node' hn' : (⟨2, ![M', 8]⟩ : Shape).Idx → EReal} {node hn : (⟨2, ![M, 8]⟩ : Shape).Idx → EReal}
    (h0 : RowEq node' node r p) (h1 : RowEq hn' hn r p) (Ws Wn : (⟨2, ![8, 8]⟩ : Shape).Idx → EReal)
    (b : (⟨1, ![8]⟩ : Shape).Idx → EReal) :
    RowEq (sageUpdate node' hn' Ws Wn b) (sageUpdate node hn Ws Wn b) r p := fun q => by
  show (matT node' Ws (ix2 r q) + matT hn' Wn (ix2 r q)) + b (ix1 q) = (matT node Ws (ix2 p q) + matT hn Wn (ix2 p q)) + b (ix1 q)
  rw [h0.matT Ws q, h1.matT Wn q]

/-- The same for the perceptron. -/
theorem mlp_row {bert' : (⟨2, ![M', 768]⟩ : Shape).Idx → EReal} {head' tail' : (⟨2, ![M', 8]⟩ : Shape).Idx → EReal}
    {bert : (⟨2, ![M, 768]⟩ : Shape).Idx → EReal} {head tail : (⟨2, ![M, 8]⟩ : Shape).Idx → EReal}
    (h0 : RowEq bert' bert r p) (h1 : RowEq head' head r p) (h2 : RowEq tail' tail r p)
    (W1 : (⟨2, ![128, 768]⟩ : Shape).Idx → EReal) (b1 : (⟨1, ![128]⟩ : Shape).Idx → EReal)
    (W2 : (⟨2, ![16, 144]⟩ : Shape).Idx → EReal) (b2 : (⟨1, ![16]⟩ : Shape).Idx → EReal)
    (W3 : (⟨2, ![3, 16]⟩ : Shape).Idx → EReal) (b3 : (⟨1, ![3]⟩ : Shape).Idx → EReal) :
    RowEq (mlp bert' head' tail' W1 b1 W2 b2 W3 b3) (mlp bert head tail W1 b1 W2 b2 W3 b3) r p :=
  ((RowEq.cat3 (L := 144) (h0.linT W1 b1).relu h1 h2).linT W2 b2).relu.linT W3 b3

end Rows

end Cert.Spec

end
-- ==== Proof.SageRegion.lean ====
/-
  The first kernel region. The node table [100000, 8] is cut into 50 blocks of 2000 rows; at block t the body
  loads rows [2000 t, 2000 t + 2000) of the node features and of the neighbourhood means, the two 8 × 8 weights
  and the bias row whole, and stores  node · W_selfᵀ + h_neigh · W_neighᵀ + bias  for those rows. The update acts
  row by row, so block t of the result is rows [2000 t, 2000 t + 2000) of the update of the whole arrays; the 50
  blocks tile the table, so the table ends holding the update of the whole arrays — whatever the region found in its
  operand arrays when it was entered.
-/
import proofs.«173503_j90993177133266_2_alg».proof.Proof.Gen.KernelIdeal.Frame
import proofs.«173503_j90993177133266_2_alg».proof.Proof.Spec
import Idealize.ShloMosaic.Lib.Pipeline.Value

set_option maxRecDepth 16384

noncomputable section

namespace Cert.KernelIdeal.SageRegion

open Cert.KernelIdeal Cert.KernelIdeal.Gen Cert.Spec
open Idealize.ShloMosaic Idealize.ShloMosaic.TcCoe Idealize.ShloMosaic.ValueIdx Idealize.ShloMosaic.LibLinearT
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is the update of its loaded blocks. -/
theorem payload_eq (x0 x1 : Vec Ideal S2000x8 .f32) (x2 x3 : Vec Ideal S8x8 .f32) (x4 : Vec Ideal S1x8 .f32) :
    k0_pay1 (F := Ideal) x0 x1 x2 x3 x4 = sageUpdate (M := 2000) x0 x1 x2 x3 (rowOf x4) := by
  unfold k0_pay1
  dsimp only
  rw [kernel_biasRow, shapeCast_self,
    kernel_matT dot_S2000x8_S8x8_S2000x8_1_0_0_1_n_n rfl rfl rfl rfl rfl rfl x0 x2,
    kernel_matT dot_S2000x8_S8x8_S2000x8_1_0_0_1_n_n rfl rfl rfl rfl rfl rfl x1 x3]
  rfl

/-- The printed index maps over the grid: the three row-blocked windows sit at block (t, 0), the weights and the bias
    at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 50 := by
  have h := t.isLt
  have hN : cfg0.N = 50 := N_0
  omega

/-- Row r of the node-feature block at point t is row 2000 t + r of the array. -/
theorem read_node (c : Dev nD) (t : Fin cfg0.N) (r : Fin 2000) (hp : 2000 * t.val + r.val < 100000) (k : Fin 8) :
    iblk0 V c 0 t (ix2 r k) = V c main_arg1 (ix2 ⟨2000 * t.val + r.val, hp⟩ k) := by
  show V c main_arg1 (((cfg0.win 0).blk t).view.emb (ix2 r k)) = V c main_arg1 (ix2 ⟨2000 * t.val + r.val, hp⟩ k)
  refine congrArg _ (funext fun a => Fin.ext ?_)
  obtain ⟨e0, e1, -⟩ := idx_facts t
  match a with
  | ⟨0, _⟩ => show win0_0.index t (0 : Fin 2) * 2000 + 1 * r.val = 2000 * t.val + r.val; omega
  | ⟨1, _⟩ => show win0_0.index t (1 : Fin 2) * 8 + 1 * k.val = k.val; omega

/-- The same for the neighbourhood means. -/
theorem read_hneigh (c : Dev nD) (t : Fin cfg0.N) (r : Fin 2000) (hp : 2000 * t.val + r.val < 100000) (k : Fin 8) :
    iblk0 V c 1 t (ix2 r k) = V c main_v18 (ix2 ⟨2000 * t.val + r.val, hp⟩ k) := by
  show V c main_v18 (((cfg0.win 1).blk t).view.emb (ix2 r k)) = V c main_v18 (ix2 ⟨2000 * t.val + r.val, hp⟩ k)
  refine congrArg _ (funext fun a => Fin.ext ?_)
  obtain ⟨-, -, e0, e1, -⟩ := idx_facts t
  match a with
  | ⟨0, _⟩ => show win0_1.index t (0 : Fin 2) * 2000 + 1 * r.val = 2000 * t.val + r.val; omega
  | ⟨1, _⟩ => show win0_1.index t (1 : Fin 2) * 8 + 1 * k.val = k.val; omega

/-- The weights' and the bias's one block is the whole array. -/
theorem read_wself (c : Dev nD) (t : Fin cfg0.N) : (iblk0 V c 2 t : S8x8.Idx → EReal) = V c main_arg11 := by
  funext y
  show V c main_arg11 (((cfg0.win 2).blk t).view.emb y) = V c main_arg11 y
  refine congrArg _ (funext fun a => Fin.ext ?_)
  obtain ⟨-, -, -, -, e0, e1, -⟩ := idx_facts t
  match a with
  | ⟨0, _⟩ => show win0_2.index t (0 : Fin 2) * 8 + 1 * (y 0).val = (y 0).val; omega
  | ⟨1, _⟩ => show win0_2.index t (1 : Fin 2) * 8 + 1 * (y 1).val = (y 1).val; omega

theorem read_wneigh (c : Dev nD) (t : Fin cfg0.N) : (iblk0 V c 3 t : S8x8.Idx → EReal) = V c main_arg12 := by
  funext y
  show V c main_arg12 (((cfg0.win 3).blk t).view.emb y) = V c main_arg12 y
  refine congrArg _ (funext fun a => Fin.ext ?_)
  obtain ⟨-, -, -, -, -, -, e0, e1, -⟩ := idx_facts t
  match a with
  | ⟨0, _⟩ => show win0_3.index t (0 : Fin 2) * 8 + 1 * (y 0).val = (y 0).val; omega
  | ⟨1, _⟩ => show win0_3.index t (1 : Fin 2) * 8 + 1 * (y 1).val = (y 1).val; omega

theorem read_bias (c : Dev nD) (t : Fin cfg0.N) : (iblk0 V c 4 t : S1x8.Idx → EReal) = V c main_v19 := by
  funext y
  show V c main_v19 (((cfg0.win 4).blk t).view.emb y) = V c main_v19 y
  refine congrArg _ (funext fun a => Fin.ext ?_)
  obtain ⟨-, -, -, -, -, -, -, -, e0, e1, -⟩ := idx_facts t
  match a with
  | ⟨0, _⟩ => show win0_4.index t (0 : Fin 2) * 1 + 1 * (y 0).val = (y 0).val; omega
  | ⟨1, _⟩ => show win0_4.index t (1 : Fin 2) * 8 + 1 * (y 1).val = (y 1).val; omega

/-- What point t writes back is block t of the update of the arrays as the region finds them. -/
theorem flushed_eq (c : Dev nD) (t : Fin cfg0.N) :
    (dat0 V c).flushed 5 t = ((cfg0.win 5).blk t).view.read (Elt Ideal)
      (sageUpdate (M := 100000) (V c main_arg1) (V c main_v18) (V c main_arg11) (V c main_arg12) (rowOf (V c main_v19))) := by
  show (cfg0.win 5).cut (grid0.coords t) ((dat0 V c).after 5 t) = _
  rw [after0_5]
  unfold out0_5
  rw [View.canon_unit_zero hz]
  simp only [View.ld_unit_zero (S := S2000x8) hz, View.ld_unit_zero (S := S8x8) hz, View.ld_unit_zero (S := S1x8) hz]
  rw [payload_eq, read_wself V c t, read_wneigh V c t, read_bias V c t]
  funext j
  have ht := point_lt t
  have hj : (j 0).val < 2000 := (j 0).isLt
  obtain ⟨-, -, -, -, -, -, -, -, -, -, e0, e1⟩ := idx_facts t
  exact RowEq.apply (M' := 2000) (M := 100000) (K := 8) (r := ⟨(j 0).val, hj⟩) (p := ⟨2000 * t.val + (j 0).val, by omega⟩)
    (sageUpdate_row (fun k => read_node V c t ⟨(j 0).val, hj⟩ (by show 2000 * t.val + (j 0).val < 100000; omega) k)
      (fun k => read_hneigh V c t ⟨(j 0).val, hj⟩ (by show 2000 * t.val + (j 0).val < 100000; omega) k)
      (V c main_arg11) (V c main_arg12) (rowOf (V c main_v19)))
    j (((cfg0.win 5).blk t).view.emb j) rfl
    (by show win0_5.index t (0 : Fin 2) * 2000 + 1 * (j 0).val = 2000 * t.val + (j 0).val; omega)
    (by show win0_5.index t (1 : Fin 2) * 8 + 1 * (j 1).val = (j 1).val; omega)

/-- An index of the table is in point t's block iff each coordinate is in the block's range on its axis. -/
theorem mem_blk (t : Fin cfg0.N) (i : S100000x8.Idx) :
    i ∈ ((cfg0.win 5).blk t).view.set ↔ ∀ a : Fin 2, win0_5.index t a * S2000x8.size a ≤ (i a).val
      ∧ (i a).val < win0_5.index t a * S2000x8.size a + S2000x8.size a := by
  show i ∈ ((View.whole main_v20).slice (win0_5.rect t)).set ↔ _
  rw [View.set_slice_whole, Rect.mem_set_unit]
  exact Iff.rfl

/-- Row n lies in block n / 2000. -/
theorem cover (i : S100000x8.Idx) :
    ∃ t : Fin cfg0.N, (cfg0.win 5).flush t = true ∧ i ∈ ((cfg0.win 5).blk t).view.set := by
  have hi0 : (i 0).val < 100000 := (i 0).isLt
  have hi1 : (i 1).val < 8 := (i 1).isLt
  have hN : cfg0.N = 50 := N_0
  have hlt : (i 0).val / 2000 < cfg0.N := by omega
  obtain ⟨-, -, -, -, -, -, -, -, -, -, e0, e1⟩ := idx_facts ⟨(i 0).val / 2000, hlt⟩
  refine ⟨⟨(i 0).val / 2000, hlt⟩, flush0_5 _, ?_⟩
  rw [mem_blk]
  intro a
  match a with
  | ⟨0, _⟩ =>
    show win0_5.index ⟨(i 0).val / 2000, hlt⟩ (0 : Fin 2) * 2000 ≤ (i 0).val
      ∧ (i 0).val < win0_5.index ⟨(i 0).val / 2000, hlt⟩ (0 : Fin 2) * 2000 + 2000
    have e0' : win0_5.index ⟨(i 0).val / 2000, hlt⟩ (0 : Fin 2) = (i 0).val / 2000 := e0
    omega
  | ⟨1, _⟩ =>
    show win0_5.index ⟨(i 0).val / 2000, hlt⟩ (1 : Fin 2) * 8 ≤ (i 1).val
      ∧ (i 1).val < win0_5.index ⟨(i 0).val / 2000, hlt⟩ (1 : Fin 2) * 8 + 8
    omega

/-- The table after the region: the update of the arrays the region found. -/
theorem final (c : Dev nD) :
    (dat0 V c).arrAt 5 cfg0.N
      = sageUpdate (M := 100000) (V c main_arg1) (V c main_v18) (V c main_arg11) (V c main_arg12) (rowOf (V c main_v19)) :=
  (dat0 V c).arrAt_eq_of_cover 5 _ (fun t _ => flushed_eq V c t) cover

end Cert.KernelIdeal.SageRegion

end
-- ==== Proof.MlpRegion.lean ====
/-
  The second kernel region. The batch of 32768 rows is cut into 16 blocks of 2048 rows; at block t the body loads
  rows [2048 t, 2048 t + 2048) of the features and of the two gathered node rows, the three weights and the three
  bias rows whole, and stores the three-layer perceptron of those rows. The perceptron acts row by row, so block t
  of the result is rows [2048 t, 2048 t + 2048) of the perceptron of the whole arrays; the 16 blocks tile the
  result, which therefore ends holding the perceptron of the whole arrays — whatever the region found in its operand
  arrays when it was entered.
-/
import proofs.«173503_j90993177133266_2_alg».proof.Proof.Gen.KernelIdeal.Frame
import proofs.«173503_j90993177133266_2_alg».proof.Proof.Spec
import Idealize.ShloMosaic.Lib.Pipeline.Value

set_option maxRecDepth 16384

noncomputable section

namespace Cert.KernelIdeal.MlpRegion

open Cert.KernelIdeal Cert.KernelIdeal.Gen Cert.Spec
open Idealize.ShloMosaic Idealize.ShloMosaic.TcCoe Idealize.ShloMosaic.ValueIdx Idealize.ShloMosaic.LibLinearT
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is the perceptron of its loaded blocks. -/
theorem payload_eq (x0 : Vec Ideal S2048x768 .f32) (h t : Vec Ideal S2048x8 .f32) (w1 : Vec Ideal S128x768 .f32)
    (b1 : Vec Ideal S1x128 .f32) (w2 : Vec Ideal S16x144 .f32) (b2 : Vec Ideal S1x16 .f32) (w3 : Vec Ideal S3x16 .f32)
    (b3 : Vec Ideal S1x3 .f32) :
    k1_pay1 (F := Ideal) (k1_pay2 x0 w1 b1 h t w2 b2 w3) (k1_pay3 b3)
      = mlp (M := 2048) x0 h t w1 (rowOf b1) w2 (rowOf b2) w3 (rowOf b3) := by
  unfold k1_pay1 k1_pay2 k1_pay3
  dsimp only
  rw [kernel_biasRow, kernel_biasRow, kernel_biasRow, shapeCast_self, shapeCast_self,
    kernel_matT dot_S2048x768_S768x128_S2048x128_1_0_0_1_n_n rfl rfl rfl rfl rfl rfl x0 w1,
    concatenate_cols3 (M := 2048) (A := 128) (B := 8) (C := 8) (L := 144) rfl,
    kernel_matT dot_S2048x144_S144x16_S2048x16_1_0_0_1_n_n rfl rfl rfl rfl rfl rfl _ w2,
    kernel_matT dot_S2048x16_S16x3_S2048x3_1_0_0_1_n_n rfl rfl rfl rfl rfl rfl _ w3]
  rfl

/-- The printed index maps over the grid: the four row-blocked windows sit at block (t, 0), the weights and the
    biases at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

theorem point_lt (t : Fin cfg1.N) : t.val < 16 := by
  have h := t.isLt
  have hN : cfg1.N = 16 := N_1
  omega

/-- Row r of the feature block at point t is row 2048 t + r of the array. -/
theorem read_bert (c : Dev nD) (t : Fin cfg1.N) (r : Fin 2048) (hp : 2048 * t.val + r.val < 32768) (k : Fin 768) :
    iblk1 V c 0 t (ix2 r k) = V c main_arg0 (ix2 ⟨2048 * t.val + r.val, hp⟩ k) := by
  show V c main_arg0 (((cfg1.win 0).blk t).view.emb (ix2 r k)) = V c main_arg0 (ix2 ⟨2048 * t.val + r.val, hp⟩ k)
  refine congrArg _ (funext fun a => Fin.ext ?_)
  obtain ⟨e0, e1, -⟩ := idx_facts t
  match a with
  | ⟨0, _⟩ => show win1_0.index t (0 : Fin 2) * 2048 + 1 * r.val = 2048 * t.val + r.val; omega
  | ⟨1, _⟩ => show win1_0.index t (1 : Fin 2) * 768 + 1 * k.val = k.val; omega

/-- The same for the gathered head rows … -/
theorem read_head (c : Dev nD) (t : Fin cfg1.N) (r : Fin 2048) (hp : 2048 * t.val + r.val < 32768) (k : Fin 8) :
    iblk1 V c 1 t (ix2 r k) = V c main_v29 (ix2 ⟨2048 * t.val + r.val, hp⟩ k) := by
  show V c main_v29 (((cfg1.win 1).blk t).view.emb (ix2 r k)) = V c main_v29 (ix2 ⟨2048 * t.val + r.val, hp⟩ k)
  refine congrArg _ (funext fun a => Fin.ext ?_)
  obtain ⟨-, -, e0, e1, -⟩ := idx_facts t
  match a with
  | ⟨0, _⟩ => show win1_1.index t (0 : Fin 2) * 2048 + 1 * r.val = 2048 * t.val + r.val; omega
  | ⟨1, _⟩ => show win1_1.index t (1 : Fin 2) * 8 + 1 * k.val = k.val; omega

/-- … and tail rows. -/
theorem read_tail (c : Dev nD) (t : Fin cfg1.N) (r : Fin 2048) (hp : 2048 * t.val + r.val < 32768) (k : Fin 8) :
    iblk1 V c 2 t (ix2 r k) = V c main_v38 (ix2 ⟨2048 * t.val + r.val, hp⟩ k) := by
  show V c main_v38 (((cfg1.win 2).blk t).view.emb (ix2 r k)) = V c main_v38 (ix2 ⟨2048 * t.val + r.val, hp⟩ k)
  refine congrArg _ (funext fun a => Fin.ext ?_)
  obtain ⟨-, -, -, -, e0, e1, -⟩ := idx_facts t
  match a with
  | ⟨0, _⟩ => show win1_2.index t (0 : Fin 2) * 2048 + 1 * r.val = 2048 * t.val + r.val; omega
  | ⟨1, _⟩ => show win1_2.index t (1 : Fin 2) * 8 + 1 * k.val = k.val; omega

/-- A weight's or a bias's one block is the whole array. -/
theorem read_w1 (c : Dev nD) (t : Fin cfg1.N) : (iblk1 V c 3 t : S128x768.Idx → EReal) = V c main_arg5 := by
  funext y
  show V c main_arg5 (((cfg1.win 3).blk t).view.emb y) = V c main_arg5 y
  refine congrArg _ (funext fun a => Fin.ext ?_)
  obtain ⟨-, -, -, -, -, -, e0, e1, -⟩ := idx_facts t
  match a with
  | ⟨0, _⟩ => show win1_3.index t (0 : Fin 2) * 128 + 1 * (y 0).val = (y 0).val; omega
  | ⟨1, _⟩ => show win1_3.index t (1 : Fin 2) * 768 + 1 * (y 1).val = (y 1).val; omega

theorem read_b1 (c : Dev nD) (t : Fin cfg1.N) : (iblk1 V c 4 t : S1x128.Idx → EReal) = V c main_v39 := by
  funext y
  show V c main_v39 (((cfg1.win 4).blk t).view.emb y) = V c main_v39 y
  refine congrArg _ (funext fun a => Fin.ext ?_)
  obtain ⟨-, -, -, -, -, -, -, -, e0, e1, -⟩ := idx_facts t
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem read_w2 (c : Dev nD) (t : Fin cfg1.N) : (iblk1 V c 5 t : S16x144.Idx → EReal) = V c main_arg7 := by
  funext y
  show V c main_arg7 (((cfg1.win 5).blk t).view.emb y) = V c main_arg7 y
  refine congrArg _ (funext fun a => Fin.ext ?_)
  obtain ⟨-, -, -, -, -, -, -, -, -, -, e0, e1, -⟩ := idx_facts t
  match a with
  | ⟨0, _⟩ => show win1_5.index t (0 : Fin 2) * 16 + 1 * (y 0).val = (y 0).val; omega
  | ⟨1, _⟩ => show win1_5.index t (1 : Fin 2) * 144 + 1 * (y 1).val = (y 1).val; omega

theorem read_b2 (c : Dev nD) (t : Fin cfg1.N) : (iblk1 V c 6 t : S1x16.Idx → EReal) = V c main_v40 := by
  funext y
  show V c main_v40 (((cfg1.win 6).blk t).view.emb y) = V c main_v40 y
  refine congrArg _ (funext fun a => Fin.ext ?_)
  obtain ⟨-, -, -, -, -, -, -, -, -, -, -, -, e0, e1, -⟩ := idx_facts t
  match a with
  | ⟨0, _⟩ => show win1_6.index t (0 : Fin 2) * 1 + 1 * (y 0).val = (y 0).val; omega
  | ⟨1, _⟩ => show win1_6.index t (1 : Fin 2) * 16 + 1 * (y 1).val = (y 1).val; omega

theorem read_w3 (c : Dev nD) (t : Fin cfg1.N) : (iblk1 V c 7 t : S3x16.Idx → EReal) = V c main_arg9 := by
  funext y
  show V c main_arg9 (((cfg1.win 7).blk t).view.emb y) = V c main_arg9 y
  refine congrArg _ (funext fun a => Fin.ext ?_)
  obtain ⟨-, -, -, -, -, -, -, -, -, -, -, -, -, -, e0, e1, -⟩ := idx_facts t
  match a with
  | ⟨0, _⟩ => show win1_7.index t (0 : Fin 2) * 3 + 1 * (y 0).val = (y 0).val; omega
  | ⟨1, _⟩ => show win1_7.index t (1 : Fin 2) * 16 + 1 * (y 1).val = (y 1).val; omega

theorem read_b3 (c : Dev nD) (t : Fin cfg1.N) : (iblk1 V c 8 t : S1x3.Idx → EReal) = V c main_v41 := by
  funext y
  show V c main_v41 (((cfg1.win 8).blk t).view.emb y) = V c main_v41 y
  refine congrArg _ (funext fun a => Fin.ext ?_)
  obtain ⟨-, -, -, -, -, -, -, -, -, -, -, -, -, -, -, -, e0, e1, -⟩ := idx_facts t
  match a with
  | ⟨0, _⟩ => show win1_8.index t (0 : Fin 2) * 1 + 1 * (y 0).val = (y 0).val; omega
  | ⟨1, _⟩ => show win1_8.index t (1 : Fin 2) * 3 + 1 * (y 1).val = (y 1).val; omega

/-- What point t writes back is block t of the perceptron of the arrays as the region finds them. -/
theorem flushed_eq (c : Dev nD) (t : Fin cfg1.N) :
    (dat1 V c).flushed 9 t = ((cfg1.win 9).blk t).view.read (Elt Ideal)
      (mlp (M := 32768) (V c main_arg0) (V c main_v29) (V c main_v38) (V c main_arg5) (rowOf (V c main_v39))
        (V c main_arg7) (rowOf (V c main_v40)) (V c main_arg9) (rowOf (V c main_v41))) := by
  show (cfg1.win 9).cut (grid1.coords t) ((dat1 V c).after 9 t) = _
  rw [after1_9]
  unfold out1_9
  rw [View.canon_unit_zero hz]
  simp only [View.ld_unit_zero (S := S2048x768) hz, View.ld_unit_zero (S := S2048x8) hz, View.ld_unit_zero (S := S128x768) hz,
    View.ld_unit_zero (S := S1x128) hz, View.ld_unit_zero (S := S16x144) hz, View.ld_unit_zero (S := S1x16) hz,
    View.ld_unit_zero (S := S3x16) hz, View.ld_unit_zero (S := S1x3) hz]
  rw [payload_eq, read_w1 V c t, read_b1 V c t, read_w2 V c t, read_b2 V c t, read_w3 V c t, read_b3 V c t]
  funext j
  have ht := point_lt t
  have hj : (j 0).val < 2048 := (j 0).isLt
  obtain ⟨-, -, -, -, -, -, -, -, -, -, -, -, -, -, -, -, -, -, e0, e1⟩ := idx_facts t
  exact RowEq.apply (M' := 2048) (M := 32768) (K := 3) (r := ⟨(j 0).val, hj⟩) (p := ⟨2048 * t.val + (j 0).val, by omega⟩)
    (mlp_row (fun k => read_bert V c t ⟨(j 0).val, hj⟩ (by show 2048 * t.val + (j 0).val < 32768; omega) k)
      (fun k => read_head V c t ⟨(j 0).val, hj⟩ (by show 2048 * t.val + (j 0).val < 32768; omega) k)
      (fun k => read_tail V c t ⟨(j 0).val, hj⟩ (by show 2048 * t.val + (j 0).val < 32768; omega) k)
      (V c main_arg5) (rowOf (V c main_v39)) (V c main_arg7) (rowOf (V c main_v40)) (V c main_arg9) (rowOf (V c main_v41)))
    j (((cfg1.win 9).blk t).view.emb j) rfl
    (by show win1_9.index t (0 : Fin 2) * 2048 + 1 * (j 0).val = 2048 * t.val + (j 0).val; omega)
    (by show win1_9.index t (1 : Fin 2) * 3 + 1 * (j 1).val = (j 1).val; omega)

/-- An index of the result is in point t's block iff each coordinate is in the block's range on its axis. -/
theorem mem_blk (t : Fin cfg1.N) (i : S32768x3.Idx) :
    i ∈ ((cfg1.win 9).blk t).view.set ↔ ∀ a : Fin 2, win1_9.index t a * S2048x3.size a ≤ (i a).val
      ∧ (i a).val < win1_9.index t a * S2048x3.size a + S2048x3.size a := by
  show i ∈ ((View.whole main_v42).slice (win1_9.rect t)).set ↔ _
  rw [View.set_slice_whole, Rect.mem_set_unit]
  exact Iff.rfl

/-- Row p lies in block p / 2048. -/
theorem cover (i : S32768x3.Idx) :
    ∃ t : Fin cfg1.N, (cfg1.win 9).flush t = true ∧ i ∈ ((cfg1.win 9).blk t).view.set := by
  have hi0 : (i 0).val < 32768 := (i 0).isLt
  have hi1 : (i 1).val < 3 := (i 1).isLt
  have hN : cfg1.N = 16 := N_1
  have hlt : (i 0).val / 2048 < cfg1.N := by omega
  obtain ⟨-, -, -, -, -, -, -, -, -, -, -, -, -, -, -, -, -, -, e0, e1⟩ := idx_facts ⟨(i 0).val / 2048, hlt⟩
  refine ⟨⟨(i 0).val / 2048, hlt⟩, flush1_9 _, ?_⟩
  rw [mem_blk]
  intro a
  match a with
  | ⟨0, _⟩ =>
    show win1_9.index ⟨(i 0).val / 2048, hlt⟩ (0 : Fin 2) * 2048 ≤ (i 0).val
      ∧ (i 0).val < win1_9.index ⟨(i 0).val / 2048, hlt⟩ (0 : Fin 2) * 2048 + 2048
    have e0' : win1_9.index ⟨(i 0).val / 2048, hlt⟩ (0 : Fin 2) = (i 0).val / 2048 := e0
    omega
  | ⟨1, _⟩ =>
    show win1_9.index ⟨(i 0).val / 2048, hlt⟩ (1 : Fin 2) * 3 ≤ (i 1).val
      ∧ (i 1).val < win1_9.index ⟨(i 0).val / 2048, hlt⟩ (1 : Fin 2) * 3 + 3
    omega

/-- The result after the region: the perceptron of the arrays the region found. -/
theorem final (c : Dev nD) :
    (dat1 V c).arrAt 9 cfg1.N
      = mlp (M := 32768) (V c main_arg0) (V c main_v29) (V c main_v38) (V c main_arg5) (rowOf (V c main_v39))
        (V c main_arg7) (rowOf (V c main_v40)) (V c main_arg9) (rowOf (V c main_v41)) :=
  (dat1 V c).arrAt_eq_of_cover 9 _ (fun t _ => flushed_eq V c t) cover

end Cert.KernelIdeal.MlpRegion

end
-- ==== Proof.RefValue.lean ====
/-
  The whole computation as ONE function of the fourteen argument arrays, and the reference program's result as that
  function. The node table after the neighbourhood update is the update (Spec) of the node features and of the
  neighbourhood means — the host's gather, scatter-add, degree count and division, kept as the term the program
  prints, never opened —; the result is the perceptron (Spec) of the features and of the two rows of that table the
  host gathers per batch row, the gather and its index arithmetic again kept as printed. The reference computes each
  linear layer as the host's product with the transposed weight plus a twice-broadcast bias, each rectifier as a
  maximum with a broadcast zero, and the joined features by a concatenation: each is the function Spec names.
-/
import proofs.«173503_j90993177133266_2_alg».proof.Proof.Gen.ReferenceIdeal.Read
import proofs.«173503_j90993177133266_2_alg».proof.Proof.Spec

set_option maxRecDepth 16384

noncomputable section

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx Idealize.ShloMosaic.LibLinearT
open Idealize.SL.Sem

/-- The node table after the neighbourhood update, as a function of the arguments. -/
def nodeTable (x1 : (⟨S100000x8, .f32⟩ : BufTy).Contents (Elt Ideal)) (x2 x3 : (⟨S3200000, .i32⟩ : BufTy).Contents (Elt Ideal)) (x11 x12 : (⟨S8x8, .f32⟩ : BufTy).Contents (Elt Ideal)) (x13 : (⟨S8, .f32⟩ : BufTy).Contents (Elt Ideal)) : (⟨S100000x8, .f32⟩ : BufTy).Contents (Elt Ideal) :=
  sageUpdate (M := 100000) x1 (val_main_v18 (F := Ideal) x1 x2 x3) x11 x12 x13

/-- The result, as a function of the arguments. -/
def specResult (x0 : (⟨S32768x768, .f32⟩ : BufTy).Contents (Elt Ideal)) (x1 : (⟨S100000x8, .f32⟩ : BufTy).Contents (Elt Ideal)) (x2 x3 : (⟨S3200000, .i32⟩ : BufTy).Contents (Elt Ideal)) (x4 : (⟨S2x32768, .i32⟩ : BufTy).Contents (Elt Ideal)) (x5 : (⟨S128x768, .f32⟩ : BufTy).Contents (Elt Ideal)) (x6 : (⟨S128, .f32⟩ : BufTy).Contents (Elt Ideal)) (x7 : (⟨S16x144, .f32⟩ : BufTy).Contents (Elt Ideal)) (x8 : (⟨S16, .f32⟩ : BufTy).Contents (Elt Ideal)) (x9 : (⟨S3x16, .f32⟩ : BufTy).Contents (Elt Ideal)) (x10 : (⟨S3, .f32⟩ : BufTy).Contents (Elt Ideal)) (x11 x12 : (⟨S8x8, .f32⟩ : BufTy).Contents (Elt Ideal)) (x13 : (⟨S8, .f32⟩ : BufTy).Contents (Elt Ideal)) : (⟨S32768x3, .f32⟩ : BufTy).Contents (Elt Ideal) :=
  mlp (M := 32768) x0
    (Host.gather gather_S100000x8_S32768x1_S32768x8_1_0_n_n_0_1_18 (nodeTable x1 x2 x3 x11 x12 x13) (val_main_v40 (F := Ideal) x4))
    (Host.gather gather_S100000x8_S32768x1_S32768x8_1_0_n_n_0_1_18 (nodeTable x1 x2 x3 x11 x12 x13) (val_main_v49 (F := Ideal) x4))
    x5 x6 x7 x8 x9 x10

/-- The reference's node table is the update. -/
theorem table_eq (x1 : (⟨S100000x8, .f32⟩ : BufTy).Contents (Elt Ideal)) (x2 x3 : (⟨S3200000, .i32⟩ : BufTy).Contents (Elt Ideal)) (x11 x12 : (⟨S8x8, .f32⟩ : BufTy).Contents (Elt Ideal)) (x13 : (⟨S8, .f32⟩ : BufTy).Contents (Elt Ideal)) :
    val_main_v26 (F := Ideal) x1 x2 x3 x11 x12 x13 = nodeTable x1 x2 x3 x11 x12 x13 := by
  unfold val_main_v26 val_main_v25 val_main_v24 val_main_v23 val_main_v22 val_main_v21 val_main_v20 val_main_v19
  rw [host_biasRow,
    host_matT dot_S100000x8_S8x8_S100000x8_1_0_0_1_n_n rfl rfl rfl rfl rfl rfl x1 x11,
    host_matT dot_S100000x8_S8x8_S100000x8_1_0_0_1_n_n rfl rfl rfl rfl rfl rfl (val_main_v18 (F := Ideal) x1 x2 x3) x12]
  rfl

/-- The reference's result stage is the function. -/
theorem result_eq (x0 : (⟨S32768x768, .f32⟩ : BufTy).Contents (Elt Ideal)) (x1 : (⟨S100000x8, .f32⟩ : BufTy).Contents (Elt Ideal)) (x2 x3 : (⟨S3200000, .i32⟩ : BufTy).Contents (Elt Ideal)) (x4 : (⟨S2x32768, .i32⟩ : BufTy).Contents (Elt Ideal)) (x5 : (⟨S128x768, .f32⟩ : BufTy).Contents (Elt Ideal)) (x6 : (⟨S128, .f32⟩ : BufTy).Contents (Elt Ideal)) (x7 : (⟨S16x144, .f32⟩ : BufTy).Contents (Elt Ideal)) (x8 : (⟨S16, .f32⟩ : BufTy).Contents (Elt Ideal)) (x9 : (⟨S3x16, .f32⟩ : BufTy).Contents (Elt Ideal)) (x10 : (⟨S3, .f32⟩ : BufTy).Contents (Elt Ideal)) (x11 x12 : (⟨S8x8, .f32⟩ : BufTy).Contents (Elt Ideal)) (x13 : (⟨S8, .f32⟩ : BufTy).Contents (Elt Ideal)) :
    val_main_v62 (F := Ideal) x0 x1 x2 x3 x4 x5 x6 x7 x8 x9 x10 x11 x12 x13 = specResult x0 x1 x2 x3 x4 x5 x6 x7 x8 x9 x10 x11 x12 x13 := by
  unfold val_main_v62 val_main_v61 val_main_v60 val_main_v59 val_main_v58 val_main_v57 val_main_call1_v0 val_main_call1_cst
    val_main_v56 val_main_v55 val_main_v54 val_main_v53 val_main_v52 val_main_v51 val_main_v50 val_main_v41 val_main_v32
    val_main_call0_v0 val_main_call0_cst val_main_v31 val_main_v30 val_main_v29 val_main_v28 val_main_v27
  rw [table_eq, host_biasRow, host_biasRow, host_biasRow,
    host_matT dot_S32768x768_S768x128_S32768x128_1_0_0_1_n_n rfl rfl rfl rfl rfl rfl x0 x5,
    concatenate_cols3 (M := 32768) (A := 128) (B := 8) (C := 8) (L := 144) rfl,
    host_matT dot_S32768x144_S144x16_S32768x16_1_0_0_1_n_n rfl rfl rfl rfl rfl rfl _ x7,
    host_matT dot_S32768x16_S16x3_S32768x3_1_0_0_1_n_n rfl rfl rfl rfl rfl rfl _ x9]
  rfl

/-- The reference run's result term is the function of the arguments' launch contents. -/
theorem ref_eq (m : (ℓ : Loc nD τ sig) → Buf (Elt Ideal) ℓ) (c : Dev nD) :
    Cert.ReferenceIdeal.Value.res_main_v62 (F := Ideal) m c = specResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (val_main_v62_eq m c).trans (result_eq _ _ _ _ _ _ _ _ _ _ _ _ _ _)

end Cert.ReferenceIdeal.RefValue

end
-- ==== Proof.KernelValue.lean ====
/-
  The idealized kernel program's result as a function of its arguments. Its run crosses four boundaries: a stretch
  of host operations, the first region, a second stretch of host operations, the second region. No host operation and
  no region writes an argument, so every boundary finds the arguments as launched. The first stretch leaves the
  neighbourhood means (the host's gather, scatter-add, degree count and division: the term the reference prints too)
  and the bias as a row; the first region leaves the node table at the neighbourhood update of what it finds (the
  region's lemma); the second stretch gathers two rows of that table per batch row and makes the three biases rows; the
  second region leaves the result at the perceptron of what it finds. Composed: the result is the one function of the
  arguments that the reference computes.
-/
import proofs.«173503_j90993177133266_2_alg».proof.Proof.SageRegion
import proofs.«173503_j90993177133266_2_alg».proof.Proof.MlpRegion
import proofs.«173503_j90993177133266_2_alg».proof.Proof.RefValue
import Idealize.ShloMosaic.Lib.StableHlo.Run

set_option maxRecDepth 16384

noncomputable section

namespace Cert.KernelIdeal.Result

open Cert.KernelIdeal Cert.KernelIdeal.Gen Cert.Spec
open Idealize.ShloMosaic Idealize.ShloMosaic.TcCoe Idealize.ShloMosaic.ValueIdx Idealize.ShloMosaic.LibLinearT
open Idealize.ShloMosaic.StableHlo
open Idealize.SL.Sem

variable (m : (ℓ : Loc nD τ sig) → Buf (Elt Ideal) ℓ) (ρ : Dev nD → PrngReg)

/-! ## The first region's entry: the arguments as launched, the neighbourhood means, the bias row -/

theorem V1_arg0 (c : Dev nD) : V1 m ρ c main_arg0 = m ((c : Thread nD τ).loc main_arg0) := by
  show StableHlo.after hostOps0 (W0 m ρ c) (Proc.devRef .tc main_arg0) = _
  after_results <;> rfl
theorem V1_arg1 (c : Dev nD) : V1 m ρ c main_arg1 = m ((c : Thread nD τ).loc main_arg1) := by
  show StableHlo.after hostOps0 (W0 m ρ c) (Proc.devRef .tc main_arg1) = _
  after_results <;> rfl
theorem V1_arg4 (c : Dev nD) : V1 m ρ c main_arg4 = m ((c : Thread nD τ).loc main_arg4) := by
  show StableHlo.after hostOps0 (W0 m ρ c) (Proc.devRef .tc main_arg4) = _
  after_results <;> rfl
theorem V1_arg5 (c : Dev nD) : V1 m ρ c main_arg5 = m ((c : Thread nD τ).loc main_arg5) := by
  show StableHlo.after hostOps0 (W0 m ρ c) (Proc.devRef .tc main_arg5) = _
  after_results <;> rfl
theorem V1_arg6 (c : Dev nD) : V1 m ρ c main_arg6 = m ((c : Thread nD τ).loc main_arg6) := by
  show StableHlo.after hostOps0 (W0 m ρ c) (Proc.devRef .tc main_arg6) = _
  after_results <;> rfl
theorem V1_arg7 (c : Dev nD) : V1 m ρ c main_arg7 = m ((c : Thread nD τ).loc main_arg7) := by
  show StableHlo.after hostOps0 (W0 m ρ c) (Proc.devRef .tc main_arg7) = _
  after_results <;> rfl
theorem V1_arg8 (c : Dev nD) : V1 m ρ c main_arg8 = m ((c : Thread nD τ).loc main_arg8) := by
  show StableHlo.after hostOps0 (W0 m ρ c) (Proc.devRef .tc main_arg8) = _
  after_results <;> rfl
theorem V1_arg9 (c : Dev nD) : V1 m ρ c main_arg9 = m ((c : Thread nD τ).loc main_arg9) := by
  show StableHlo.after hostOps0 (W0 m ρ c) (Proc.devRef .tc main_arg9) = _
  after_results <;> rfl
theorem V1_arg10 (c : Dev nD) : V1 m ρ c main_arg10 = m ((c : Thread nD τ).loc main_arg10) := by
  show StableHlo.after hostOps0 (W0 m ρ c) (Proc.devRef .tc main_arg10) = _
  after_results <;> rfl
theorem V1_arg11 (c : Dev nD) : V1 m ρ c main_arg11 = m ((c : Thread nD τ).loc main_arg11) := by
  show StableHlo.after hostOps0 (W0 m ρ c) (Proc.devRef .tc main_arg11) = _
  after_results <;> rfl
theorem V1_arg12 (c : Dev nD) : V1 m ρ c main_arg12 = m ((c : Thread nD τ).loc main_arg12) := by
  show StableHlo.after hostOps0 (W0 m ρ c) (Proc.devRef .tc main_arg12) = _
  after_results <;> rfl
theorem V1_arg13 (c : Dev nD) : V1 m ρ c main_arg13 = m ((c : Thread nD τ).loc main_arg13) := by
  show StableHlo.after hostOps0 (W0 m ρ c) (Proc.devRef .tc main_arg13) = _
  after_results <;> rfl

set_option maxHeartbeats 4000000 in
/-- The neighbourhood means are the reference's term of the node features and the two edge arrays. -/
theorem V1_hneigh (c : Dev nD) :
    V1 m ρ c main_v18 = Cert.ReferenceIdeal.Read.val_main_v18 (F := Ideal) (m ((c : Thread nD τ).loc main_arg1)) (m ((c : Thread nD τ).loc main_arg2)) (m ((c : Thread nD τ).loc main_arg3)) := by
  show StableHlo.after hostOps0 (W0 m ρ c) (Proc.devRef .tc main_v18) = _
  after_results_simp <;> rfl

/-- The bias window's one row is the bias. -/
theorem V1_bias (c : Dev nD) : rowOf (N := 8) (V1 m ρ c main_v19) = (m ((c : Thread nD τ).loc main_arg13)) := by
  have e : V1 m ρ c main_v19 = shapeCast S1x8 (m ((c : Thread nD τ).loc main_arg13)) shapeCasts_S8_S1x8 := by
    show StableHlo.after hostOps0 (W0 m ρ c) (Proc.devRef .tc main_v19) = _
    after_results <;> rfl
  rw [e]
  exact rowOf_shapeCast _ _

/-! ## The first region's exit -/

/-- The node table after the first region is the reference's node table. -/
theorem W2_table (c : Dev nD) :
    W2 m ρ c (Proc.devRef .tc main_v20)
      = Cert.ReferenceIdeal.RefValue.nodeTable (m ((c : Thread nD τ).loc main_arg1)) (m ((c : Thread nD τ).loc main_arg2)) (m ((c : Thread nD τ).loc main_arg3)) (m ((c : Thread nD τ).loc main_arg11)) (m ((c : Thread nD τ).loc main_arg12)) (m ((c : Thread nD τ).loc main_arg13)) := by
  refine (W2_arr m ρ c 5).trans ?_
  rw [SageRegion.final (V1 m ρ) c, V1_arg1 m ρ c, V1_hneigh m ρ c, V1_arg11 m ρ c, V1_arg12 m ρ c, V1_bias m ρ c]
  rfl

theorem W2_arg0 (c : Dev nD) : W2 m ρ c (Proc.devRef .tc main_arg0) = m ((c : Thread nD τ).loc main_arg0) :=
  (W2_of_ne m ρ c main_arg0 (by decide)).trans (V1_arg0 m ρ c)
theorem W2_arg4 (c : Dev nD) : W2 m ρ c (Proc.devRef .tc main_arg4) = m ((c : Thread nD τ).loc main_arg4) :=
  (W2_of_ne m ρ c main_arg4 (by decide)).trans (V1_arg4 m ρ c)
theorem W2_arg5 (c : Dev nD) : W2 m ρ c (Proc.devRef .tc main_arg5) = m ((c : Thread nD τ).loc main_arg5) :=
  (W2_of_ne m ρ c main_arg5 (by decide)).trans (V1_arg5 m ρ c)
theorem W2_arg6 (c : Dev nD) : W2 m ρ c (Proc.devRef .tc main_arg6) = m ((c : Thread nD τ).loc main_arg6) :=
  (W2_of_ne m ρ c main_arg6 (by decide)).trans (V1_arg6 m ρ c)
theorem W2_arg7 (c : Dev nD) : W2 m ρ c (Proc.devRef .tc main_arg7) = m ((c : Thread nD τ).loc main_arg7) :=
  (W2_of_ne m ρ c main_arg7 (by decide)).trans (V1_arg7 m ρ c)
theorem W2_arg8 (c : Dev nD) : W2 m ρ c (Proc.devRef .tc main_arg8) = m ((c : Thread nD τ).loc main_arg8) :=
  (W2_of_ne m ρ c main_arg8 (by decide)).trans (V1_arg8 m ρ c)
theorem W2_arg9 (c : Dev nD) : W2 m ρ c (Proc.devRef .tc main_arg9) = m ((c : Thread nD τ).loc main_arg9) :=
  (W2_of_ne m ρ c main_arg9 (by decide)).trans (V1_arg9 m ρ c)
theorem W2_arg10 (c : Dev nD) : W2 m ρ c (Proc.devRef .tc main_arg10) = m ((c : Thread nD τ).loc main_arg10) :=
  (W2_of_ne m ρ c main_arg10 (by decide)).trans (V1_arg10 m ρ c)

/-! ## The second region's entry -/

theorem V3_arg0 (c : Dev nD) : V3 m ρ c main_arg0 = m ((c : Thread nD τ).loc main_arg0) := by
  show StableHlo.after hostOps1 (W2 m ρ c) (Proc.devRef .tc main_arg0) = _
  after_results
  exact W2_arg0 m ρ c
theorem V3_arg5 (c : Dev nD) : V3 m ρ c main_arg5 = m ((c : Thread nD τ).loc main_arg5) := by
  show StableHlo.after hostOps1 (W2 m ρ c) (Proc.devRef .tc main_arg5) = _
  after_results
  exact W2_arg5 m ρ c
theorem V3_arg7 (c : Dev nD) : V3 m ρ c main_arg7 = m ((c : Thread nD τ).loc main_arg7) := by
  show StableHlo.after hostOps1 (W2 m ρ c) (Proc.devRef .tc main_arg7) = _
  after_results
  exact W2_arg7 m ρ c
theorem V3_arg9 (c : Dev nD) : V3 m ρ c main_arg9 = m ((c : Thread nD τ).loc main_arg9) := by
  show StableHlo.after hostOps1 (W2 m ρ c) (Proc.devRef .tc main_arg9) = _
  after_results
  exact W2_arg9 m ρ c
/-- A bias window's one row is the bias. -/
theorem V3_b1 (c : Dev nD) : rowOf (N := 128) (V3 m ρ c main_v39) = (m ((c : Thread nD τ).loc main_arg6)) := by
  have e : V3 m ρ c main_v39 = shapeCast S1x128 (W2 m ρ c (Proc.devRef .tc main_arg6)) shapeCasts_S128_S1x128 := by
    show StableHlo.after hostOps1 (W2 m ρ c) (Proc.devRef .tc main_v39) = _
    after_results <;> rfl
  rw [e, W2_arg6 m ρ c]
  exact rowOf_shapeCast _ _
/-- A bias window's one row is the bias. -/
theorem V3_b2 (c : Dev nD) : rowOf (N := 16) (V3 m ρ c main_v40) = (m ((c : Thread nD τ).loc main_arg8)) := by
  have e : V3 m ρ c main_v40 = shapeCast S1x16 (W2 m ρ c (Proc.devRef .tc main_arg8)) shapeCasts_S16_S1x16 := by
    show StableHlo.after hostOps1 (W2 m ρ c) (Proc.devRef .tc main_v40) = _
    after_results <;> rfl
  rw [e, W2_arg8 m ρ c]
  exact rowOf_shapeCast _ _
/-- A bias window's one row is the bias. -/
theorem V3_b3 (c : Dev nD) : rowOf (N := 3) (V3 m ρ c main_v41) = (m ((c : Thread nD τ).loc main_arg10)) := by
  have e : V3 m ρ c main_v41 = shapeCast S1x3 (W2 m ρ c (Proc.devRef .tc main_arg10)) shapeCasts_S3_S1x3 := by
    show StableHlo.after hostOps1 (W2 m ρ c) (Proc.devRef .tc main_v41) = _
    after_results <;> rfl
  rw [e, W2_arg10 m ρ c]
  exact rowOf_shapeCast _ _

/-- The gathered head rows: the host's gather of the node table at the reference's index term of the row ids. -/
theorem V3_head (c : Dev nD) :
    V3 m ρ c main_v29 = Host.gather gather_S100000x8_S32768x1_S32768x8_1_0_n_n_0_1_18 (W2 m ρ c (Proc.devRef .tc main_v20))
      (Cert.ReferenceIdeal.Read.val_main_v40 (F := Ideal) (W2 m ρ c (Proc.devRef .tc main_arg4))) := by
  show StableHlo.after hostOps1 (W2 m ρ c) (Proc.devRef .tc main_v29) = _
  after_results <;> rfl

set_option maxHeartbeats 4000000 in
/-- The gathered tail rows. -/
theorem V3_tail (c : Dev nD) :
    V3 m ρ c main_v38 = Host.gather gather_S100000x8_S32768x1_S32768x8_1_0_n_n_0_1_18 (W2 m ρ c (Proc.devRef .tc main_v20))
      (Cert.ReferenceIdeal.Read.val_main_v49 (F := Ideal) (W2 m ρ c (Proc.devRef .tc main_arg4))) := by
  show StableHlo.after hostOps1 (W2 m ρ c) (Proc.devRef .tc main_v38) = _
  after_results_simp <;> rfl

/-! ## The result -/

/-- The result buffer at the last boundary is the one function of the arguments. -/
theorem result_eq (c : Dev nD) :
    W4 m ρ c (Proc.devRef .tc main_v42)
      = Cert.ReferenceIdeal.RefValue.specResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W4_arr m ρ c 9).trans ?_
  rw [MlpRegion.final (V3 m ρ) c, V3_arg0 m ρ c, V3_arg5 m ρ c, V3_arg7 m ρ c, V3_arg9 m ρ c, V3_b1 m ρ c, V3_b2 m ρ c,
    V3_b3 m ρ c, V3_head m ρ c, V3_tail m ρ c, W2_table m ρ c, W2_arg4 m ρ c]
  rfl

end Cert.KernelIdeal.Result

end
-- ==== Proof.lean ====
/-
  The kernel and its reference compute one function of their fourteen arguments over the extended reals.

  Both first form, on the host and by the same operations, the mean of each node's in-neighbours' features
  (a gather of the source rows, a scatter-add into the destination rows, a degree count clamped below by one, a
  division). The node table is then updated, row n to  node[n] · W_selfᵀ + h_neigh[n] · W_neighᵀ + bias : the
  reference by two host products with transposed weights and a broadcast bias, the kernel block by block of 2000
  rows, each block by two products into a zero accumulator of its operands narrowed to a shorter float format —
  which over the extended reals changes nothing. Two rows of the table are gathered per batch row, by the same host
  gather on both sides. Last comes a three-layer perceptron,
      relu( [ relu(bert[p] · W1ᵀ + b1) | head[p] | tail[p] ] · W2ᵀ + b2 ) · W3ᵀ + b3 ,
  the reference on whole arrays, the kernel block by block of 2048 rows. Every stage acts row by row, so computing
  it on a block of rows gives that block of rows of the stage on the whole arrays, and the blocks tile the arrays.
  No law beyond reading each operation at an index is used: the two sides add and multiply the same numbers in the
  same arrangement, so the inputs' finiteness is never needed.

  The idealized kernel program's frame is the generated one, its value is read off the same launch (KernelRun,
  KernelValue over the two regions' lemmas SageRegion and MlpRegion); the reference's run and its stages are the
  generated ones (RefValue); the word-level kernel needs its generated frame only, and the idealization rewrote no
  operation.
-/
import proofs.«173503_j90993177133266_2_alg».proof.Defs
import proofs.«173503_j90993177133266_2_alg».proof.Proof.Gen.Kernel
import proofs.«173503_j90993177133266_2_alg».proof.Proof.Gen.Kernel.Skeleton
import proofs.«173503_j90993177133266_2_alg».proof.Proof.Gen.Kernel.Launch
import proofs.«173503_j90993177133266_2_alg».proof.Proof.Gen.Kernel.Points
import proofs.«173503_j90993177133266_2_alg».proof.Proof.Gen.Kernel.Frame
import proofs.«173503_j90993177133266_2_alg».proof.Proof.Gen.KernelIdeal
import proofs.«173503_j90993177133266_2_alg».proof.Proof.Gen.KernelIdeal.Skeleton
import proofs.«173503_j90993177133266_2_alg».proof.Proof.Gen.KernelIdeal.Launch
import proofs.«173503_j90993177133266_2_alg».proof.Proof.Gen.KernelIdeal.Points
import proofs.«173503_j90993177133266_2_alg».proof.Proof.Gen.KernelIdeal.Frame
import proofs.«173503_j90993177133266_2_alg».proof.Proof.Gen.ReferenceIdeal
import proofs.«173503_j90993177133266_2_alg».proof.Proof.Gen.ReferenceIdeal.Run
import proofs.«173503_j90993177133266_2_alg».proof.Proof.Gen.ReferenceIdeal.Read
import proofs.«173503_j90993177133266_2_alg».proof.Proof.Gen.Pre_finite_inputs
import proofs.«173503_j90993177133266_2_alg».proof.Proof.KernelRun
import proofs.«173503_j90993177133266_2_alg».proof.Proof.KernelValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result at the one function of the
    arguments. -/
theorem algebraic : Cert.algebraic_KernelIdeal_ReferenceIdeal := by
  intro m ρ m' ρ' _ hagree
  refine ⟨fun c => Cert.ReferenceIdeal.RefValue.specResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Result.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    have e := Cert.ReferenceIdeal.RefValue.ref_eq m' c
    obtain ⟨h0, h1, h2, h3, h4, h5, h6, h7, h8, h9, h10, h11, h12, h13⟩ := hagree c
    rw [h0, h1, h2, h3, h4, h5, h6, h7, h8, h9, h10, h11, h12, h13] at e
    exact e

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
